-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S524288x9 : Shape := ⟨2, ![524288, 9]⟩
abbrev S524288x64 : Shape := ⟨2, ![524288, 64]⟩
abbrev S64x128 : Shape := ⟨2, ![64, 128]⟩
abbrev S128 : Shape := ⟨1, ![128]⟩
abbrev S128x128 : Shape := ⟨2, ![128, 128]⟩
abbrev S128x12 : Shape := ⟨2, ![128, 12]⟩
abbrev S12 : Shape := ⟨1, ![12]⟩
abbrev S_ : Shape := ⟨0, ![]⟩

class Facts : Prop where
  bcast_S_S524288x9 : S_.BroadcastsInDim S524288x9 (![] : Fin 0 → Fin S524288x9.rank)
  reducesTo_S524288x9_S_d0_1 : S524288x9.ReducesTo [0, 1] S_
  h_S_ : 0 < S_.numel
  bcast_S_S524288x64 : S_.BroadcastsInDim S524288x64 (![] : Fin 0 → Fin S524288x64.rank)
  reducesTo_S524288x64_S_d0_1 : S524288x64.ReducesTo [0, 1] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x12 : S_.BroadcastsInDim S128x12 (![] : Fin 0 → Fin S128x12.rank)
  reducesTo_S128x12_S_d0_1 : S128x12.ReducesTo [0, 1] S_
  bcast_S_S12 : S_.BroadcastsInDim S12 (![] : Fin 0 → Fin S12.rank)
  reducesTo_S12_S_d0 : S12.ReducesTo [0] S_

variable [Facts]

def fn_part2 {F : FTy → Type} [FloatOps F] (main_arg7 : FVec F S12 .f32) (main_v33 : IVec S_ 1) : IVec S_ 1 :=
  let main_v34 : FVec F S12 .f32 := Host.absf main_arg7
  let main_cst_12 : FVec F S_ .f32 := constant S_ .f32 0x7F800000#32
  let main_v35 : FVec F S12 .f32 := broadcastInDim S12 ![] bcast_S_S12 main_cst_12
  let main_v36 : IVec S12 1 := cmpf .olt main_v34 main_v35
  let main_c_13 : IVec S_ 1 := constantI S_ 1 1#1
  let main_v37 : IVec S_ 1 := (fun x v => Host.reduce IntOp.andi x v reducesTo_S12_S_d0 h_S_) main_v36 main_c_13
  let main_v38 : IVec S_ 1 := andi main_v33 main_v37
  main_v38

def fn_part1 {F : FTy → Type} [FloatOps F] (main_arg4 : FVec F S128x128 .f32) (main_arg5 : FVec F S128 .f32) (main_arg6 : FVec F S128x12 .f32) (main_arg7 : FVec F S12 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x12 .f32 := Host.absf main_arg6
  let main_cst_10 : FVec F S_ .f32 := constant S_ .f32 0x7F800000#32
  let main_v30 : FVec F S128x12 .f32 := broadcastInDim S128x12 ![] bcast_S_S128x12 main_cst_10
  let main_v31 : IVec S128x12 1 := cmpf .olt main_v29 main_v30
  let main_c_11 : IVec S_ 1 := constantI S_ 1 1#1
  let main_v32 : IVec S_ 1 := (fun x v => Host.reduce IntOp.andi x v reducesTo_S128x12_S_d0_1 h_S_) main_v31 main_c_11
  let main_v33 : IVec S_ 1 := andi main_v28 main_v32
  fn_part2 (F := F) main_arg7 main_v33

def fn {F : FTy → Type} [FloatOps F] (main_arg0 : FVec F S524288x9 .f32) (main_arg1 : FVec F S524288x64 .f32) (main_arg2 : FVec F S64x128 .f32) (main_arg3 : FVec F S128 .f32) (main_arg4 : FVec F S128x128 .f32) (main_arg5 : FVec F S128 .f32) (main_arg6 : FVec F S128x12 .f32) (main_arg7 : FVec F S12 .f32) : IVec S_ 1 :=
  let main_v0 : FVec F S524288x9 .f32 := Host.absf main_arg0
  let main_cst : FVec F S_ .f32 := constant S_ .f32 0x7F800000#32
  let main_v1 : FVec F S524288x9 .f32 := broadcastInDim S524288x9 ![] bcast_S_S524288x9 main_cst
  let main_v2 : IVec S524288x9 1 := cmpf .olt main_v0 main_v1
  let main_c : IVec S_ 1 := constantI S_ 1 1#1
  let main_v3 : IVec S_ 1 := (fun x v => Host.reduce IntOp.andi x v reducesTo_S524288x9_S_d0_1 h_S_) main_v2 main_c
  let main_v4 : FVec F S524288x64 .f32 := Host.absf main_arg1
  let main_cst_0 : FVec F S_ .f32 := constant S_ .f32 0x7F800000#32
  let main_v5 : FVec F S524288x64 .f32 := broadcastInDim S524288x64 ![] bcast_S_S524288x64 main_cst_0
  let main_v6 : IVec S524288x64 1 := cmpf .olt main_v4 main_v5
  let main_c_1 : IVec S_ 1 := constantI S_ 1 1#1
  let main_v7 : IVec S_ 1 := (fun x v => Host.reduce IntOp.andi x v reducesTo_S524288x64_S_d0_1 h_S_) main_v6 main_c_1
  let main_v8 : IVec S_ 1 := andi main_v3 main_v7
  let main_v9 : FVec F S64x128 .f32 := Host.absf main_arg2
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_v13 main_v16
-- ==== Kernel.lean ====
abbrev S524288x9 : Shape := ⟨2, ![524288, 9]⟩
abbrev S524288x64 : Shape := ⟨2, ![524288, 64]⟩
abbrev S64x128 : Shape := ⟨2, ![64, 128]⟩
abbrev S128 : Shape := ⟨1, ![128]⟩
abbrev S128x128 : Shape := ⟨2, ![128, 128]⟩
abbrev S128x12 : Shape := ⟨2, ![128, 12]⟩
abbrev S12 : Shape := ⟨1, ![12]⟩
abbrev S1x128 : Shape := ⟨2, ![1, 128]⟩
abbrev S1x12 : Shape := ⟨2, ![1, 12]⟩
abbrev S524288x3 : Shape := ⟨2, ![524288, 3]⟩
abbrev S8192x9 : Shape := ⟨2, ![8192, 9]⟩
abbrev S8192x64 : Shape := ⟨2, ![8192, 64]⟩
abbrev S8192x3 : Shape := ⟨2, ![8192, 3]⟩
abbrev S8192x128 : Shape := ⟨2, ![8192, 128]⟩
abbrev S8192x12 : Shape := ⟨2, ![8192, 12]⟩
abbrev S8192 : Shape := ⟨1, ![8192]⟩
abbrev S8192x1 : Shape := ⟨2, ![8192, 1]⟩

abbrev nBuf : Space → Nat
  | .hbm => 12
  | .vmem => 12
  | .smem => 0
  | _ => 0

abbrev bufTy : (tb : Table) → Fin (tcTables nBuf tb) → BufTy
  | .hbm, ⟨0, _⟩ => ⟨S524288x9, .f32⟩
  | .hbm, ⟨1, _⟩ => ⟨S524288x64, .f32⟩
  | .hbm, ⟨2, _⟩ => ⟨S64x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x12, .f32⟩
  | .hbm, ⟨7, _⟩ => ⟨S12, .f32⟩
  | .hbm, ⟨8, _⟩ => ⟨S1x128, .f32⟩
  | .hbm, ⟨9, _⟩ => ⟨S1x128, .f32⟩
  | .hbm, ⟨10, _⟩ => ⟨S1x12, .f32⟩
  | .hbm, ⟨11, _⟩ => ⟨S524288x3, .f32⟩
  | .local _ .vmem, ⟨0, _⟩ => ⟨S8192x9, .f32⟩
  | .local _ .vmem, ⟨1, _⟩ => ⟨S8192x9, .f32⟩
  | .local _ .vmem, ⟨2, _⟩ => ⟨S8192x64, .f32⟩
  | .local _ .vmem, ⟨3, _⟩ => ⟨S8192x64, .f32⟩
  | .local _ .vmem, ⟨4, _⟩ => ⟨S64x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S128x12, .f32⟩
  | .local _ .vmem, ⟨9, _⟩ => ⟨S1x12, .f32⟩
  | .local _ .vmem, ⟨10, _⟩ => ⟨S8192x3, .f32⟩
  | .local _ .vmem, ⟨11, _⟩ => ⟨S8192x3, .f32⟩
  | _, _ => ⟨S524288x9, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x9 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x12 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x12 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S8192x3 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  shapeCasts_S128_S1x128 : S128.ShapeCasts S1x128
  shapeCasts_S12_S1x12 : S12.ShapeCasts S1x12
  inb_S8192x9_S8192x9_0_0 : ∀ a, (![0, 0] : Fin 2 → Nat) a + S8192x9.size a ≤ S8192x9.size a
  h_S8192x9 : 0 < S8192x9.numel
  inb_S8192x64_S8192x64_0_0 : ∀ a, (![0, 0] : Fin 2 → Nat) a + S8192x64.size a ≤ S8192x64.size a
  h_S8192x64 : 0 < S8192x64.numel
  inb_S64x128_S64x128_0_0 : ∀ a, (![0, 0] : Fin 2 → Nat) a + S64x128.size a ≤ S64x128.size a
  h_S64x128 : 0 < S64x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128x12_S128x12_0_0 : ∀ a, (![0, 0] : Fin 2 → Nat) a + S128x12.size a ≤ S128x12.size a
  h_S128x12 : 0 < S128x12.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S1x12_S1x12_0_0 : ∀ a, (![0, 0] : Fin 2 → Nat) a + S1x12.size a ≤ S1x12.size a
  h_S1x12 : 0 < S1x12.numel
  shapeCasts_S1x12_S1x12 : S1x12.ShapeCasts S1x12
  broadcasts_S1x128_S8192x128 : S1x128.Broadcasts S8192x128
  broadcasts_S1x12_S8192x12 : S1x12.Broadcasts S8192x12
  slices_S8192x12_o0_0_S8192x9 : S8192x12.Slices ![0, 0] S8192x9
  iota_S8192x9_d1_w32 : S8192x9.Iotas .tc 32 [1]
  slices_S8192x12_o0_9_S8192x3 : S8192x12.Slices ![0, 9] S8192x3
  slices_S8192x9_o0_0_S8192x3 : S8192x9.Slices ![0, 0] S8192x3
  reduces_S8192x3_S8192 : S8192x3.Reduces [1] S8192
  shapeCasts_S8192_S8192x1 : S8192.ShapeCasts S8192x1
  slices_S8192x9_o0_3_S8192x3 : S8192x9.Slices ![0, 3] S8192x3
  slices_S8192x9_o0_6_S8192x3 : S8192x9.Slices ![0, 6] S8192x3
  concatenates_S8192x1_S8192x1_S8192x1_S8192x3_d1 : Shape.Concatenates [S8192x1, S8192x1, S8192x1] S8192x3 1
  inb_S8192x3_S8192x3_0_0 : ∀ a, (![0, 0] : Fin 2 → Nat) a + S8192x3.size a ≤ S8192x3.size a
  h_S8192x3 : 0 < S8192x3.numel
  dot_S8192x64_S64x128_S8192x128_1_0_0_1_n_n_wf : DotDims.WF S8192x64 S64x128 S8192x128 [1] [0] [0] [1] [] []
  dot_S8192x128_S128x128_S8192x128_1_0_0_1_n_n_wf : DotDims.WF S8192x128 S128x128 S8192x128 [1] [0] [0] [1] [] []
  dot_S8192x128_S128x12_S8192x12_1_0_0_1_n_n_wf : DotDims.WF S8192x128 S128x12 S8192x12 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x9.size a ≤ S524288x9.size a
  hwx0_0 : ∀ i : grid0.Coords, EltTy.bits .f32 = 32 ∨ (Rect.block (s := S524288x9) S8192x9.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x64.size a ≤ S524288x64.size a
  hwx0_1 : ∀ i : grid0.Coords, EltTy.bits .f32 = 32 ∨ (Rect.block (s := S524288x64) S8192x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x12.size a ≤ S128x12.size a
  hwx0_6 : ∀ i : grid0.Coords, EltTy.bits .f32 = 32 ∨ (Rect.block (s := S128x12) S128x12.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x12.size a ≤ S1x12.size a
  hwx0_7 : ∀ i : grid0.Coords, EltTy.bits .f32 = 32 ∨ (Rect.block (s := S1x12) S1x12.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S8192x3.size a ≤ S524288x3.size a
  hwx0_8 : ∀ i : grid0.Coords, EltTy.bits .f32 = 32 ∨ (Rect.block (s := S524288x3) S8192x3.size (cc0_transform_8 i) (hinb0_8 i)).WholeWords (EltTy.packing .f32)

variable [Facts₀]

def dot_S8192x64_S64x128_S8192x128_1_0_0_1_n_n : DotDims S8192x64 S64x128 S8192x128 where
  lhsContracting := [1]
  rhsContracting := [0]
  lhsNonContracting := [0]
  rhsNonContracting := [1]
  lhsBatch := []
  rhsBatch := []
  wf := dot_S8192x64_S64x128_S8192x128_1_0_0_1_n_n_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S8192x128_S128x12_S8192x12_1_0_0_1_n_n : DotDims S8192x128 S128x12 S8192x12 where
  lhsContracting := [1]
  rhsContracting := [0]
  lhsNonContracting := [0]
  rhsNonContracting := [1]
  lhsBatch := []
  rhsBatch := []
  wf := dot_S8192x128_S128x12_S8192x12_1_0_0_1_n_n_wf

abbrev win0_0 : Pipeline.Window sig grid0 :=
  Pipeline.Window.ofSpec (Memref.whole main_arg0) S8192x9.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8192x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128x12.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S1x12.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3) S8192x3.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S524288x9 : Shape := ⟨2, ![524288, 9]⟩
abbrev S524288x64 : Shape := ⟨2, ![524288, 64]⟩
abbrev S64x128 : Shape := ⟨2, ![64, 128]⟩
abbrev S128 : Shape := ⟨1, ![128]⟩
abbrev S128x128 : Shape := ⟨2, ![128, 128]⟩
abbrev S128x12 : Shape := ⟨2, ![128, 12]⟩
abbrev S12 : Shape := ⟨1, ![12]⟩
abbrev S524288x128 : Shape := ⟨2, ![524288, 128]⟩
abbrev S1x128 : Shape := ⟨2, ![1, 128]⟩
abbrev S_ : Shape := ⟨0, ![]⟩
abbrev S524288x12 : Shape := ⟨2, ![524288, 12]⟩
abbrev S1x12 : Shape := ⟨2, ![1, 12]⟩
abbrev S524288x6 : Shape := ⟨2, ![524288, 6]⟩
abbrev S524288x1 : Shape := ⟨2, ![524288, 1]⟩
abbrev S524288x2 : Shape := ⟨2, ![524288, 2]⟩
abbrev S524288x3 : Shape := ⟨2, ![524288, 3]⟩
abbrev S524288 : Shape := ⟨1, ![524288]⟩

abbrev nBuf : Space → Nat
  | .hbm => 58
  | .vmem => 0
  | .smem => 0
  | _ => 0

abbrev bufTy : (tb : Table) → Fin (tcTables nBuf tb) → BufTy
  | .hbm, ⟨0, _⟩ => ⟨S524288x9, .f32⟩
  | .hbm, ⟨1, _⟩ => ⟨S524288x64, .f32⟩
  | .hbm, ⟨2, _⟩ => ⟨S64x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x12, .f32⟩
  | .hbm, ⟨7, _⟩ => ⟨S12, .f32⟩
  | .hbm, ⟨8, _⟩ => ⟨S524288x128, .f32⟩
  | .hbm, ⟨9, _⟩ => ⟨S1x128, .f32⟩
  | .hbm, ⟨10, _⟩ => ⟨S524288x128, .f32⟩
  | .hbm, ⟨11, _⟩ => ⟨S524288x128, .f32⟩
  | .hbm, ⟨12, _⟩ => ⟨S_, .f32⟩
  | .hbm, ⟨13, _⟩ => ⟨S524288x128, .f32⟩
  | .hbm, ⟨14, _⟩ => ⟨S524288x128, .f32⟩
  | .hbm, ⟨15, _⟩ => ⟨S524288x128, .f32⟩
  | .hbm, ⟨16, _⟩ => ⟨S1x128, .f32⟩
  | .hbm, ⟨17, _⟩ => ⟨S524288x128, .f32⟩
  | .hbm, ⟨18, _⟩ => ⟨S524288x128, .f32⟩
  | .hbm, ⟨19, _⟩ => ⟨S_, .f32⟩
  | .hbm, ⟨20, _⟩ => ⟨S524288x128, .f32⟩
  | .hbm, ⟨21, _⟩ => ⟨S524288x128, .f32⟩
  | .hbm, ⟨22, _⟩ => ⟨S524288x12, .f32⟩
  | .hbm, ⟨23, _⟩ => ⟨S1x12, .f32⟩
  | .hbm, ⟨24, _⟩ => ⟨S524288x12, .f32⟩
  | .hbm, ⟨25, _⟩ => ⟨S524288x12, .f32⟩
  | .hbm, ⟨26, _⟩ => ⟨S524288x6, .f32⟩
  | .hbm, ⟨27, _⟩ => ⟨S524288x6, .f32⟩
  | .hbm, ⟨28, _⟩ => ⟨S_, .f32⟩
  | .hbm, ⟨29, _⟩ => ⟨S524288x6, .f32⟩
  | .hbm, ⟨30, _⟩ => ⟨S524288x6, .f32⟩
  | .hbm, ⟨31, _⟩ => ⟨S524288x6, .f32⟩
  | .hbm, ⟨32, _⟩ => ⟨S524288x1, .f32⟩
  | .hbm, ⟨33, _⟩ => ⟨S524288x2, .f32⟩
  | .hbm, ⟨34, _⟩ => ⟨S524288x2, .f32⟩
  | .hbm, ⟨35, _⟩ => ⟨S_, .f32⟩
  | .hbm, ⟨36, _⟩ => ⟨S524288x2, .f32⟩
  | .hbm, ⟨37, _⟩ => ⟨S524288x2, .f32⟩
  | .hbm, ⟨38, _⟩ => ⟨S524288x2, .f32⟩
  | .hbm, ⟨39, _⟩ => ⟨S524288x3, .f32⟩
  | .hbm, ⟨40, _⟩ => ⟨S524288x12, .f32⟩
  | .hbm, ⟨41, _⟩ => ⟨S524288x9, .f32⟩
  | .hbm, ⟨42, _⟩ => ⟨S524288x3, .f32⟩
  | .hbm, ⟨43, _⟩ => ⟨S524288x9, .f32⟩
  | .hbm, ⟨44, _⟩ => ⟨S524288x3, .f32⟩
  | .hbm, ⟨45, _⟩ => ⟨S_, .f32⟩
  | .hbm, ⟨46, _⟩ => ⟨S524288, .f32⟩
  | .hbm, ⟨47, _⟩ => ⟨S524288x3, .f32⟩
  | .hbm, ⟨48, _⟩ => ⟨S_, .f32⟩
  | .hbm, ⟨49, _⟩ => ⟨S524288, .f32⟩
  | .hbm, ⟨50, _⟩ => ⟨S524288x3, .f32⟩
  | .hbm, ⟨51, _⟩ => ⟨S_, .f32⟩
  | .hbm, ⟨52, _⟩ => ⟨S524288, .f32⟩
  | .hbm, ⟨53, _⟩ => ⟨S524288x1, .f32⟩
  | .hbm, ⟨54, _⟩ => ⟨S524288x1, .f32⟩
  | .hbm, ⟨55, _⟩ => ⟨S524288x1, .f32⟩
  | .hbm, ⟨56, _⟩ => ⟨S524288x3, .f32⟩
  | .hbm, ⟨57, _⟩ => ⟨S524288x3, .f32⟩
  | _, _ => ⟨S524288x9, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_call0_cst : Ref sig .tc := ⟨.hbm, 12, rfl⟩
abbrev main_call0_v0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_call1_cst : Ref sig .tc := ⟨.hbm, 19, rfl⟩
abbrev main_call1_v0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_call2_cst : Ref sig .tc := ⟨.hbm, 28, rfl⟩
abbrev main_call2_v0 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_call3_cst : Ref sig .tc := ⟨.hbm, 35, rfl⟩
abbrev main_call3_v0 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst : Ref sig .tc := ⟨.hbm, 45, rfl⟩
abbrev main_v29 : Ref sig .tc := ⟨.hbm, 46, rfl⟩
abbrev main_v30 : Ref sig .tc := ⟨.hbm, 47, rfl⟩
abbrev main_cst_0 : Ref sig .tc := ⟨.hbm, 48, rfl⟩
abbrev main_v31 : Ref sig .tc := ⟨.hbm, 49, rfl⟩
abbrev main_v32 : Ref sig .tc := ⟨.hbm, 50, rfl⟩
abbrev main_cst_1 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S524288x128_0_1 : S1x128.BroadcastsInDim S524288x128 (![0, 1] : Fin 2 → Fin S524288x128.rank)
  bcast_S_S524288x128 : S_.BroadcastsInDim S524288x128 (![] : Fin 0 → Fin S524288x128.rank)
  bcast_S12_S1x12_1 : S12.BroadcastsInDim S1x12 (![1] : Fin 1 → Fin S1x12.rank)
  bcast_S1x12_S524288x12_0_1 : S1x12.BroadcastsInDim S524288x12 (![0, 1] : Fin 2 → Fin S524288x12.rank)
  slices_S524288x12_S524288x6_0_0 : S524288x12.Slices ![0, 0] S524288x6
  bcast_S_S524288x6 : S_.BroadcastsInDim S524288x6 (![] : Fin 0 → Fin S524288x6.rank)
  slices_S524288x12_S524288x1_0_6 : S524288x12.Slices ![0, 6] S524288x1
  slices_S524288x12_S524288x2_0_7 : S524288x12.Slices ![0, 7] S524288x2
  bcast_S_S524288x2 : S_.BroadcastsInDim S524288x2 (![] : Fin 0 → Fin S524288x2.rank)
  slices_S524288x12_S524288x3_0_9 : S524288x12.Slices ![0, 9] S524288x3
  concatenates_S524288x6_S524288x1_S524288x2_S524288x3_S524288x12_d1 : Shape.Concatenates [S524288x6, S524288x1, S524288x2, S524288x3] S524288x12 1
  slices_S524288x12_S524288x9_0_0 : S524288x12.Slices ![0, 0] S524288x9
  slices_S524288x9_S524288x3_0_0 : S524288x9.Slices ![0, 0] S524288x3
  reducesTo_S524288x3_S524288_d1 : S524288x3.ReducesTo [1] S524288
  h_S_ : 0 < S_.numel
  slices_S524288x9_S524288x3_0_3 : S524288x9.Slices ![0, 3] S524288x3
  slices_S524288x9_S524288x3_0_6 : S524288x9.Slices ![0, 6] S524288x3
  bcast_S524288_S524288x1_0 : S524288.BroadcastsInDim S524288x1 (![0] : Fin 1 → Fin S524288x1.rank)
  concatenates_S524288x1_S524288x1_S524288x1_S524288x3_d1 : Shape.Concatenates [S524288x1, S524288x1, S524288x1] S524288x3 1
  dot_S524288x64_S64x128_S524288x128_1_0_0_1_n_n_wf : DotDims.WF S524288x64 S64x128 S524288x128 [1] [0] [0] [1] [] []
  dot_S524288x128_S128x128_S524288x128_1_0_0_1_n_n_wf : DotDims.WF S524288x128 S128x128 S524288x128 [1] [0] [0] [1] [] []
  dot_S524288x128_S128x12_S524288x12_1_0_0_1_n_n_wf : DotDims.WF S524288x128 S128x12 S524288x12 [1] [0] [0] [1] [] []

variable [Facts₀]

def dot_S524288x64_S64x128_S524288x128_1_0_0_1_n_n : DotDims S524288x64 S64x128 S524288x128 where
  lhsContracting := [1]
  rhsContracting := [0]
  lhsNonContracting := [0]
  rhsNonContracting := [1]
  lhsBatch := []
  rhsBatch := []
  wf := dot_S524288x64_S64x128_S524288x128_1_0_0_1_n_n_wf
def dot_S524288x128_S128x128_S524288x128_1_0_0_1_n_n : DotDims S524288x128 S128x128 S524288x128 where
  lhsContracting := [1]
  rhsContracting := [0]
  lhsNonContracting := [0]
  rhsNonContracting := [1]
  lhsBatch := []
  rhsBatch := []
  wf := dot_S524288x128_S128x128_S524288x128_1_0_0_1_n_n_wf
def dot_S524288x128_S128x12_S524288x12_1_0_0_1_n_n : DotDims S524288x128 S128x12 S524288x12 where
  lhsContracting := [1]
  rhsContracting := [0]
  lhsNonContracting := [0]
  rhsNonContracting := [1]
  lhsBatch := []
  rhsBatch := []
  wf := dot_S524288x128_S128x12_S524288x12_1_0_0_1_n_n_wf

class Facts : Prop extends Facts₀ where

variable [Facts]
-- ==== Proof.Spec.lean ====
/-
  The function both programs compute, written one row at a time over the extended reals.

  A row of socio-demographic features `z` goes through a three-layer perceptron
  (affine map, clamp at zero from below, twice; then a last affine map), giving twelve numbers `β`.
  The first nine are taste coefficients: each is clamped at zero from above (`min β 0`), except the one at
  position 6, which passes through. The last three are intercepts. The result has three entries: entry `c`
  is the sum over the three features of segment `c` of feature times taste coefficient, plus intercept `c`.
-/
import Idealize.ShloMosaic.PureOps.Ideal
import Idealize.ShloMosaic.Lib.ValueIdx

noncomputable section

namespace Cert.TasteNet

open Idealize.ShloMosaic Idealize.ShloMosaic.ValueIdx

/-- A matrix as a function of an index of the literal shape `[a, b]`. -/
abbrev Mat (a b : Nat) : Type := (⟨2, ![a, b]⟩ : Shape).Idx → EReal

/-- First hidden layer of one row: `max (z · W₁ + b₁) 0`. -/
def hid1 (zr : Fin 64 → EReal) (W1 : Fin 64 → Fin 128 → EReal) (b1 : Fin 128 → EReal) (j : Fin 128) : EReal :=
  max ((∑ k : Fin 64, zr k * W1 k j) + b1 j) 0

/-- Second hidden layer of one row: `max (h · W₂ + b₂) 0`. -/
def hid2 (h : Fin 128 → EReal) (W2 : Fin 128 → Fin 128 → EReal) (b2 : Fin 128 → EReal) (j : Fin 128) : EReal :=
  max ((∑ k : Fin 128, h k * W2 k j) + b2 j) 0

/-- Output layer of one row: `h · W₃ + b₃`, twelve numbers. -/
def lin3 (h : Fin 128 → EReal) (W3 : Fin 128 → Fin 12 → EReal) (b3 : Fin 12 → EReal) (j : Fin 12) : EReal :=
  (∑ k : Fin 128, h k * W3 k j) + b3 j

/-- The twelve numbers of one row from its features and the weights. -/
def beta (zr : Fin 64 → EReal) (W1 : Fin 64 → Fin 128 → EReal) (b1 : Fin 128 → EReal)
    (W2 : Fin 128 → Fin 128 → EReal) (b2 : Fin 128 → EReal) (W3 : Fin 128 → Fin 12 → EReal) (b3 : Fin 12 → EReal) :
    Fin 12 → EReal :=
  lin3 (hid2 (hid1 zr W1 b1) W2 b2) W3 b3

/-- Taste coefficient `q` (of nine): `β q` clamped at zero from above, except at position 6. -/
def taste (bb : Fin 12 → EReal) (q : Fin 9) : EReal :=
  if q.val = 6 then bb ⟨q.val, by have := q.isLt; omega⟩ else min (bb ⟨q.val, by have := q.isLt; omega⟩) 0

/-- Entry `c` (of three) of a row's result: segment `c`'s features against their taste coefficients, summed,
    plus intercept `c`. -/
def logit (xr : Fin 9 → EReal) (bb : Fin 12 → EReal) (c : Fin 3) : EReal :=
  (∑ k : Fin 3, xr ⟨3 * c.val + k.val, by have := c.isLt; have := k.isLt; omega⟩
        * taste bb ⟨3 * c.val + k.val, by have := c.isLt; have := k.isLt; omega⟩)
    + bb ⟨9 + c.val, by have := c.isLt; omega⟩

/-- The whole result array from the argument arrays (the three bias vectors given by their entries). -/
def out (x : Mat 524288 9) (z : Mat 524288 64) (W1 : Mat 64 128) (b1 : Fin 128 → EReal) (W2 : Mat 128 128)
    (b2 : Fin 128 → EReal) (W3 : Mat 128 12) (b3 : Fin 12 → EReal) : Mat 524288 3 := fun i =>
  logit (fun q => x (ix2 (i 0) q))
    (beta (fun k => z (ix2 (i 0) k)) (fun k j => W1 (ix2 k j)) b1 (fun k j => W2 (ix2 k j)) b2 (fun k j => W3 (ix2 k j)) b3)
    (i 1)

/-- Negating, clamping at zero from below and negating again is clamping at zero from above. -/
theorem neg_max_neg_zero (v : EReal) : -(max (-v) 0) = min v 0 := by
  rcases le_total v 0 with h | h
  · have h' : (0 : EReal) ≤ -v := by simpa using EReal.neg_le_neg_iff.mpr h
    rw [max_eq_left h', neg_neg, min_eq_left h]
  · have h' : -v ≤ (0 : EReal) := by simpa using EReal.neg_le_neg_iff.mpr h
    rw [max_eq_right h', neg_zero, min_eq_right h]

end Cert.TasteNet

end
-- ==== Proof.RefLayers.lean ====
/-
  The reference's three dense layers, read at an index: row `r` of each layer is the row function of
  row `r` of the features and of the weights, the bias vectors read entry by entry.
-/
import proofs.«146409_j45483703665013_2_alg».proof.Proof.ReadP
import proofs.«146409_j45483703665013_2_alg».proof.Proof.Spec

noncomputable section

namespace Cert.ReferenceIdeal.Layers

open Cert.ReferenceIdeal Cert.ReferenceIdeal.ReadP Idealize.ShloMosaic Idealize.ShloMosaic.ValueIdx Cert.TasteNet

/-! ## Where each operation reads its operands, in coordinates -/

theorem lidx0 (r : Fin 524288) (j : Fin 128) (k : Fin 64) : lidx_main_v0 (ix2 r j) k = ix2 r k :=
  funext fun a => Fin.ext (by match a with | ⟨0, _⟩ => rfl | ⟨1, _⟩ => rfl)
theorem ridx0 (r : Fin 524288) (j : Fin 128) (k : Fin 64) : ridx_main_v0 (ix2 r j) k = ix2 k j :=
  funext fun a => Fin.ext (by match a with | ⟨0, _⟩ => rfl | ⟨1, _⟩ => rfl)
theorem bidx2 (r : Fin 524288) (j : Fin 128) : idx_main_v2 (ix2 r j) = ix2 (0 : Fin 1) j :=
  funext fun a => Fin.ext (by match a with | ⟨0, _⟩ => rfl | ⟨1, _⟩ => rfl)
theorem bidx1 (j : Fin 128) : idx_main_v1 (ix2 (0 : Fin 1) j) = ix1 j :=
  funext fun a => Fin.ext (by match a with | ⟨0, _⟩ => rfl)

theorem lidx5 (r : Fin 524288) (j : Fin 128) (k : Fin 128) : lidx_main_v5 (ix2 r j) k = ix2 r k :=
  funext fun a => Fin.ext (by match a with | ⟨0, _⟩ => rfl | ⟨1, _⟩ => rfl)
theorem ridx5 (r : Fin 524288) (j : Fin 128) (k : Fin 128) : ridx_main_v5 (ix2 r j) k = ix2 k j :=
  funext fun a => Fin.ext (by match a with | ⟨0, _⟩ => rfl | ⟨1, _⟩ => rfl)
theorem bidx7 (r : Fin 524288) (j : Fin 128) : idx_main_v7 (ix2 r j) = ix2 (0 : Fin 1) j :=
  funext fun a => Fin.ext (by match a with | ⟨0, _⟩ => rfl | ⟨1, _⟩ => rfl)
theorem bidx6 (j : Fin 128) : idx_main_v6 (ix2 (0 : Fin 1) j) = ix1 j :=
  funext fun a => Fin.ext (by match a with | ⟨0, _⟩ => rfl)

theorem lidx10 (r : Fin 524288) (j : Fin 12) (k : Fin 128) : lidx_main_v10 (ix2 r j) k = ix2 r k :=
  funext fun a => Fin.ext (by match a with | ⟨0, _⟩ => rfl | ⟨1, _⟩ => rfl)
theorem ridx10 (r : Fin 524288) (j : Fin 12) (k : Fin 128) : ridx_main_v10 (ix2 r j) k = ix2 k j :=
  funext fun a => Fin.ext (by match a with | ⟨0, _⟩ => rfl | ⟨1, _⟩ => rfl)
theorem bidx12 (r : Fin 524288) (j : Fin 12) : idx_main_v12 (ix2 r j) = ix2 (0 : Fin 1) j :=
  funext fun a => Fin.ext (by match a with | ⟨0, _⟩ => rfl | ⟨1, _⟩ => rfl)
theorem bidx11 (j : Fin 12) : idx_main_v11 (ix2 (0 : Fin 1) j) = ix1 j :=
  funext fun a => Fin.ext (by match a with | ⟨0, _⟩ => rfl)

/-! ## The layers -/

variable (x1 : (⟨S524288x64, .f32⟩ : BufTy).Contents (Elt Ideal)) (x2 : (⟨S64x128, .f32⟩ : BufTy).Contents (Elt Ideal))
  (x3 : (⟨S128, .f32⟩ : BufTy).Contents (Elt Ideal)) (x4 : (⟨S128x128, .f32⟩ : BufTy).Contents (Elt Ideal))
  (x5 : (⟨S128, .f32⟩ : BufTy).Contents (Elt Ideal)) (x6 : (⟨S128x12, .f32⟩ : BufTy).Contents (Elt Ideal))
  (x7 : (⟨S12, .f32⟩ : BufTy).Contents (Elt Ideal))

/-- Row `r` of the first hidden layer. -/
theorem hidden1 (r : Fin 524288) (j : Fin 128) :
    val_main_v4 (F := Ideal) x1 x2 x3 (ix2 r j)
      = hid1 (fun k => x1 (ix2 r k)) (fun k j => x2 (ix2 k j)) (fun j => x3 (ix1 j)) j := by
  rw [val_main_v4_apply, val_main_v3_apply, val_main_v0_apply, val_main_v2_apply, val_main_v1_apply,
    val_main_call0_v0_apply, val_main_call0_cst_apply]
  simp only [lidx0, ridx0, bidx2, bidx1, Ideal.maximumf_def, Ideal.addf_def, Ideal.ofBits_def, Ideal.ofBits_zero_f32]
  rfl

/-- Row `r` of the second hidden layer. -/
theorem hidden2 (r : Fin 524288) (j : Fin 128) :
    val_main_v9 (F := Ideal) x1 x2 x3 x4 x5 (ix2 r j)
      = hid2 (hid1 (fun k => x1 (ix2 r k)) (fun k j => x2 (ix2 k j)) (fun j => x3 (ix1 j)))
          (fun k j => x4 (ix2 k j)) (fun j => x5 (ix1 j)) j := by
  rw [val_main_v9_apply, val_main_v8_apply, val_main_v5_apply, val_main_v7_apply, val_main_v6_apply,
    val_main_call1_v0_apply, val_main_call1_cst_apply]
  simp only [lidx5, ridx5, bidx7, bidx6, hidden1, Ideal.maximumf_def, Ideal.addf_def, Ideal.ofBits_def, Ideal.ofBits_zero_f32]
  rfl

/-- Row `r` of the output layer: the twelve numbers of the row. -/
theorem output (r : Fin 524288) (j : Fin 12) :
    val_main_v13 (F := Ideal) x1 x2 x3 x4 x5 x6 x7 (ix2 r j)
      = beta (fun k => x1 (ix2 r k)) (fun k j => x2 (ix2 k j)) (fun j => x3 (ix1 j))
          (fun k j => x4 (ix2 k j)) (fun j => x5 (ix1 j)) (fun k j => x6 (ix2 k j)) (fun j => x7 (ix1 j)) j := by
  rw [val_main_v13_apply, val_main_v10_apply, val_main_v12_apply, val_main_v11_apply]
  simp only [lidx10, ridx10, bidx12, bidx11, hidden2, Ideal.addf_def]
  rfl

end Cert.ReferenceIdeal.Layers

end
-- ==== Proof.RefRow.lean ====
/-
  The reference's result read at an index: entry `(r, c)` is the row function of row `r` of the arguments.

  After the three dense layers the reference rebuilds the twelve columns from four pieces laid side by side — columns
  0–5 negated, clamped at zero from below and negated again; column 6 as it is; columns 7–8 treated like 0–5; columns
  9–11 as they are —, multiplies the first nine by the features, sums each segment of three columns, lays the three
  sums side by side and adds the last three columns. Negating, clamping from below and negating again is clamping
  from above, so the nine rebuilt columns are the taste coefficients of the row function.
-/
import proofs.«146409_j45483703665013_2_alg».proof.Proof.RefLayers

noncomputable section

namespace Cert.ReferenceIdeal.Row

open Cert.ReferenceIdeal Cert.ReferenceIdeal.ReadP Idealize.ShloMosaic Idealize.ShloMosaic.ValueIdx Cert.TasteNet
open Cert.ReferenceIdeal.Layers

variable (x0 : (⟨S524288x9, .f32⟩ : BufTy).Contents (Elt Ideal))
  (x1 : (⟨S524288x64, .f32⟩ : BufTy).Contents (Elt Ideal)) (x2 : (⟨S64x128, .f32⟩ : BufTy).Contents (Elt Ideal))
  (x3 : (⟨S128, .f32⟩ : BufTy).Contents (Elt Ideal)) (x4 : (⟨S128x128, .f32⟩ : BufTy).Contents (Elt Ideal))
  (x5 : (⟨S128, .f32⟩ : BufTy).Contents (Elt Ideal)) (x6 : (⟨S128x12, .f32⟩ : BufTy).Contents (Elt Ideal))
  (x7 : (⟨S12, .f32⟩ : BufTy).Contents (Elt Ideal))

/-- The twelve numbers of row `r`. -/
abbrev betaOf (r : Fin 524288) : Fin 12 → EReal :=
  beta (fun k => x1 (ix2 r k)) (fun k j => x2 (ix2 k j)) (fun j => x3 (ix1 j))
    (fun k j => x4 (ix2 k j)) (fun j => x5 (ix1 j)) (fun k j => x6 (ix2 k j)) (fun j => x7 (ix1 j))

/-! ## The four pieces of the rebuilt twelve columns -/

/-- Columns 0–5: clamped at zero from above. -/
theorem piece0_at (r : Fin 524288) (j : Fin 6) :
    val_main_v17 (F := Ideal) x1 x2 x3 x4 x5 x6 x7 (ix2 r j) = min (betaOf x1 x2 x3 x4 x5 x6 x7 r ⟨j.val, by have := j.isLt; omega⟩) 0 := by
  have e : idx_main_v14 (ix2 r j) = ix2 r ⟨j.val, by have := j.isLt; omega⟩ :=
    funext fun a => Fin.ext (by match a with | ⟨0, _⟩ => rfl | ⟨1, _⟩ => rfl)
  rw [val_main_v17_apply, val_main_v16_apply, val_main_v15_apply, val_main_v14_apply, val_main_call2_v0_apply,
    val_main_call2_cst_apply, e, output]
  simp only [Ideal.hostNegf_def, Ideal.negf_def, Ideal.maximumf_def, Ideal.ofBits_def, Ideal.ofBits_zero_f32]
  exact neg_max_neg_zero _

/-- Column 6: as it is. -/
theorem piece1_at (r : Fin 524288) :
    val_main_v18 (F := Ideal) x1 x2 x3 x4 x5 x6 x7 (ix2 r (0 : Fin 1)) = betaOf x1 x2 x3 x4 x5 x6 x7 r ⟨6, by omega⟩ := by
  have e : idx_main_v18 (ix2 r (0 : Fin 1)) = ix2 r ⟨6, by omega⟩ :=
    funext fun a => Fin.ext (by match a with | ⟨0, _⟩ => rfl | ⟨1, _⟩ => rfl)
  rw [val_main_v18_apply, e, output]

/-- Columns 7–8: clamped at zero from above. -/
theorem piece2_at (r : Fin 524288) (j : Fin 2) :
    val_main_v22 (F := Ideal) x1 x2 x3 x4 x5 x6 x7 (ix2 r j) = min (betaOf x1 x2 x3 x4 x5 x6 x7 r ⟨7 + j.val, by have := j.isLt; omega⟩) 0 := by
  have e : idx_main_v19 (ix2 r j) = ix2 r ⟨7 + j.val, by have := j.isLt; omega⟩ :=
    funext fun a => Fin.ext (by match a with | ⟨0, _⟩ => rfl | ⟨1, _⟩ => rfl)
  rw [val_main_v22_apply, val_main_v21_apply, val_main_v20_apply, val_main_v19_apply, val_main_call3_v0_apply,
    val_main_call3_cst_apply, e, output]
  simp only [Ideal.hostNegf_def, Ideal.negf_def, Ideal.maximumf_def, Ideal.ofBits_def, Ideal.ofBits_zero_f32]
  exact neg_max_neg_zero _

/-- Columns 9–11: as they are. -/
theorem piece3_at (r : Fin 524288) (j : Fin 3) :
    val_main_v23 (F := Ideal) x1 x2 x3 x4 x5 x6 x7 (ix2 r j) = betaOf x1 x2 x3 x4 x5 x6 x7 r ⟨9 + j.val, by have := j.isLt; omega⟩ := by
  have e : idx_main_v23 (ix2 r j) = ix2 r ⟨9 + j.val, by have := j.isLt; omega⟩ :=
    funext fun a => Fin.ext (by match a with | ⟨0, _⟩ => rfl | ⟨1, _⟩ => rfl)
  rw [val_main_v23_apply, e, output]

/-! ## The rebuilt columns at an index -/

/-- A taste column of the rebuilt twelve: the taste coefficient. -/
theorem rebuilt_taste (r : Fin 524288) (q : Fin 9) :
    val_main_v24 (F := Ideal) x1 x2 x3 x4 x5 x6 x7 (ix2 r ⟨q.val, by have := q.isLt; omega⟩) = taste (betaOf x1 x2 x3 x4 x5 x6 x7 r) q := by
  have hq := q.isLt
  unfold val_main_v24 taste
  by_cases h6 : q.val = 6
  · rw [if_pos h6]
    refine Eq.trans (concatenate_apply_piece (t := S524288x12) (1 : Fin 2) _ _ _ 1 ?_ S524288x1 (val_main_v18 (F := Ideal) x1 x2 x3 x4 x5 x6 x7) ?_ rfl 6 ?_
      (ix2 r (0 : Fin 1)) ?_ ?_) ?_
    · exact (by decide : (1 : ℕ) < 4)
    · rfl
    · rfl
    · intro b hb
      match b with
      | ⟨0, _⟩ => rfl
      | ⟨1, _⟩ => exact absurd rfl hb
    · show 6 + 0 = q.val; omega
    rw [piece1_at]
    exact congrArg _ (Fin.ext h6.symm)
  · rw [if_neg h6]
    by_cases hlt : q.val < 6
    · refine Eq.trans (concatenate_apply_piece (t := S524288x12) (1 : Fin 2) _ _ _ 0 ?_ S524288x6 (val_main_v17 (F := Ideal) x1 x2 x3 x4 x5 x6 x7) ?_ rfl 0 ?_
        (ix2 r (⟨q.val, hlt⟩ : Fin 6)) ?_ ?_) ?_
      · exact (by decide : (0 : ℕ) < 4)
      · rfl
      · rfl
      · intro b hb
        match b with
        | ⟨0, _⟩ => rfl
        | ⟨1, _⟩ => exact absurd rfl hb
      · show 0 + q.val = q.val; omega
      rw [piece0_at]
    · refine Eq.trans (concatenate_apply_piece (t := S524288x12) (1 : Fin 2) _ _ _ 2 ?_ S524288x2 (val_main_v22 (F := Ideal) x1 x2 x3 x4 x5 x6 x7) ?_ rfl 7 ?_
        (ix2 r (⟨q.val - 7, by omega⟩ : Fin 2)) ?_ ?_) ?_
      · exact (by decide : (2 : ℕ) < 4)
      · rfl
      · rfl
      · intro b hb
        match b with
        | ⟨0, _⟩ => rfl
        | ⟨1, _⟩ => exact absurd rfl hb
      · show 7 + (q.val - 7) = q.val; omega
      rw [piece2_at]
      exact congrArg (fun j => min (betaOf x1 x2 x3 x4 x5 x6 x7 r j) 0) (Fin.ext (by show 7 + (q.val - 7) = q.val; omega))

/-- An intercept column of the rebuilt twelve: the row's number at that column. -/
theorem rebuilt_intercept (r : Fin 524288) (c : Fin 3) :
    val_main_v24 (F := Ideal) x1 x2 x3 x4 x5 x6 x7 (ix2 r ⟨9 + c.val, by have := c.isLt; omega⟩) = betaOf x1 x2 x3 x4 x5 x6 x7 r ⟨9 + c.val, by have := c.isLt; omega⟩ := by
  unfold val_main_v24
  refine Eq.trans (concatenate_apply_piece (t := S524288x12) (1 : Fin 2) _ _ _ 3 ?_ S524288x3 (val_main_v23 (F := Ideal) x1 x2 x3 x4 x5 x6 x7) ?_ rfl 9 ?_
    (ix2 r c) ?_ ?_) ?_
  · exact (by decide : (3 : ℕ) < 4)
  · rfl
  · rfl
  · intro b hb
    match b with
    | ⟨0, _⟩ => rfl
    | ⟨1, _⟩ => exact absurd rfl hb
  · rfl
  rw [piece3_at]

/-- Feature times taste coefficient, at column `q`. -/
theorem product_at (r : Fin 524288) (q : Fin 9) :
    val_main_v27 (F := Ideal) x0 x1 x2 x3 x4 x5 x6 x7 (ix2 r q) = x0 (ix2 r q) * taste (betaOf x1 x2 x3 x4 x5 x6 x7 r) q := by
  have e : idx_main_v25 (ix2 r q) = ix2 r ⟨q.val, by have := q.isLt; omega⟩ :=
    funext fun a => Fin.ext (by match a with | ⟨0, _⟩ => rfl | ⟨1, _⟩ => rfl)
  rw [val_main_v27_apply, val_main_v25_apply, e, rebuilt_taste]
  rfl

/-! ## The three segment sums -/

theorem sum0_at (r : Fin 524288) :
    val_main_v34 (F := Ideal) x0 x1 x2 x3 x4 x5 x6 x7 (ix2 r (0 : Fin 1))
      = ∑ k : Fin 3, x0 (ix2 r ⟨0 + k.val, by have := k.isLt; omega⟩) * taste (betaOf x1 x2 x3 x4 x5 x6 x7 r) ⟨0 + k.val, by have := k.isLt; omega⟩ := by
  have e34 : idx_main_v34 (ix2 r (0 : Fin 1)) = ix1 r := funext fun a => Fin.ext (by match a with | ⟨0, _⟩ => rfl)
  have e29 : ∀ k : Fin 3, idx_main_v29 (ix1 r) k = ix2 r k :=
    fun k => funext fun a => Fin.ext (by match a with | ⟨0, _⟩ => rfl | ⟨1, _⟩ => rfl)
  have e28 : ∀ k : Fin 3, idx_main_v28 (ix2 r k) = ix2 r ⟨0 + k.val, by have := k.isLt; omega⟩ :=
    fun k => funext fun a => Fin.ext (by match a with | ⟨0, _⟩ => rfl | ⟨1, _⟩ => exact (Nat.zero_add _).symm)
  rw [val_main_v34_apply, e34, val_main_v29_apply, val_main_cst_apply]
  simp only [e29, val_main_v28_apply, e28, product_at, Ideal.ofBits_def, Ideal.ofBits_zero_f32, zero_add]

theorem sum1_at (r : Fin 524288) :
    val_main_v35 (F := Ideal) x0 x1 x2 x3 x4 x5 x6 x7 (ix2 r (0 : Fin 1))
      = ∑ k : Fin 3, x0 (ix2 r ⟨3 + k.val, by have := k.isLt; omega⟩) * taste (betaOf x1 x2 x3 x4 x5 x6 x7 r) ⟨3 + k.val, by have := k.isLt; omega⟩ := by
  have e35 : idx_main_v35 (ix2 r (0 : Fin 1)) = ix1 r := funext fun a => Fin.ext (by match a with | ⟨0, _⟩ => rfl)
  have e31 : ∀ k : Fin 3, idx_main_v31 (ix1 r) k = ix2 r k :=
    fun k => funext fun a => Fin.ext (by match a with | ⟨0, _⟩ => rfl | ⟨1, _⟩ => rfl)
  have e30 : ∀ k : Fin 3, idx_main_v30 (ix2 r k) = ix2 r ⟨3 + k.val, by have := k.isLt; omega⟩ :=
    fun k => funext fun a => Fin.ext (by match a with | ⟨0, _⟩ => rfl | ⟨1, _⟩ => rfl)
  rw [val_main_v35_apply, e35, val_main_v31_apply, val_main_cst_0_apply]
  simp only [e31, val_main_v30_apply, e30, product_at, Ideal.ofBits_def, Ideal.ofBits_zero_f32, zero_add]

theorem sum2_at (r : Fin 524288) :
    val_main_v36 (F := Ideal) x0 x1 x2 x3 x4 x5 x6 x7 (ix2 r (0 : Fin 1))
      = ∑ k : Fin 3, x0 (ix2 r ⟨6 + k.val, by have := k.isLt; omega⟩) * taste (betaOf x1 x2 x3 x4 x5 x6 x7 r) ⟨6 + k.val, by have := k.isLt; omega⟩ := by
  have e36 : idx_main_v36 (ix2 r (0 : Fin 1)) = ix1 r := funext fun a => Fin.ext (by match a with | ⟨0, _⟩ => rfl)
  have e33 : ∀ k : Fin 3, idx_main_v33 (ix1 r) k = ix2 r k :=
    fun k => funext fun a => Fin.ext (by match a with | ⟨0, _⟩ => rfl | ⟨1, _⟩ => rfl)
  have e32 : ∀ k : Fin 3, idx_main_v32 (ix2 r k) = ix2 r ⟨6 + k.val, by have := k.isLt; omega⟩ :=
    fun k => funext fun a => Fin.ext (by match a with | ⟨0, _⟩ => rfl | ⟨1, _⟩ => rfl)
  rw [val_main_v36_apply, e36, val_main_v33_apply, val_main_cst_1_apply]
  simp only [e33, val_main_v32_apply, e32, product_at, Ideal.ofBits_def, Ideal.ofBits_zero_f32, zero_add]

/-! ## The result -/

/-- Entry `(r, c)` of the reference's result is the row function of row `r` of the arguments. -/
theorem result_at (r : Fin 524288) (c : Fin 3) :
    val_main_v38 (F := Ideal) x0 x1 x2 x3 x4 x5 x6 x7 (ix2 r c) = logit (fun q => x0 (ix2 r q)) (betaOf x1 x2 x3 x4 x5 x6 x7 r) c := by
  have e26 : idx_main_v26 (ix2 r c) = ix2 r ⟨9 + c.val, by have := c.isLt; omega⟩ :=
    funext fun a => Fin.ext (by match a with | ⟨0, _⟩ => rfl | ⟨1, _⟩ => rfl)
  rw [val_main_v38_apply, val_main_v26_apply, e26, rebuilt_intercept]
  unfold logit val_main_v37
  show _ + _ = _
  refine congrArg (· + betaOf x1 x2 x3 x4 x5 x6 x7 r ⟨9 + c.val, by have := c.isLt; omega⟩) ?_
  match c with
  | ⟨0, _⟩ =>
    refine Eq.trans (concatenate_apply_piece (t := S524288x3) (1 : Fin 2) _ _ _ 0 ?_ S524288x1 (val_main_v34 (F := Ideal) x0 x1 x2 x3 x4 x5 x6 x7) ?_ rfl 0 ?_
      (ix2 r (0 : Fin 1)) ?_ ?_) ?_
    · exact (by decide : (0 : ℕ) < 3)
    · rfl
    · rfl
    · intro b hb
      match b with
      | ⟨0, _⟩ => rfl
      | ⟨1, _⟩ => exact absurd rfl hb
    · rfl
    rw [sum0_at]; rfl
  | ⟨1, _⟩ =>
    refine Eq.trans (concatenate_apply_piece (t := S524288x3) (1 : Fin 2) _ _ _ 1 ?_ S524288x1 (val_main_v35 (F := Ideal) x0 x1 x2 x3 x4 x5 x6 x7) ?_ rfl 1 ?_
      (ix2 r (0 : Fin 1)) ?_ ?_) ?_
    · exact (by decide : (1 : ℕ) < 3)
    · rfl
    · rfl
    · intro b hb
      match b with
      | ⟨0, _⟩ => rfl
      | ⟨1, _⟩ => exact absurd rfl hb
    · rfl
    rw [sum1_at]; rfl
  | ⟨2, _⟩ =>
    refine Eq.trans (concatenate_apply_piece (t := S524288x3) (1 : Fin 2) _ _ _ 2 ?_ S524288x1 (val_main_v36 (F := Ideal) x0 x1 x2 x3 x4 x5 x6 x7) ?_ rfl 2 ?_
      (ix2 r (0 : Fin 1)) ?_ ?_) ?_
    · exact (by decide : (2 : ℕ) < 3)
    · rfl
    · rfl
    · intro b hb
      match b with
      | ⟨0, _⟩ => rfl
      | ⟨1, _⟩ => exact absurd rfl hb
    · rfl
    rw [sum2_at]; rfl

/-- The reference's result array is the specification of its arguments. -/
theorem result_eq :
    val_main_v38 (F := Ideal) x0 x1 x2 x3 x4 x5 x6 x7
      = out x0 x1 x2 (fun j => x3 (ix1 j)) x4 (fun j => x5 (ix1 j)) x6 (fun j => x7 (ix1 j)) := by
  funext i
  obtain ⟨r, c, rfl⟩ : ∃ (r : Fin 524288) (c : Fin 3), i = ix2 r c := ⟨i 0, i 1, eq_ix2 i⟩
  exact result_at x0 x1 x2 x3 x4 x5 x6 x7 r c

end Cert.ReferenceIdeal.Row

end
-- ==== Proof.KernelLayers.lean ====
/-
  The kernel's three dense layers on one block of rows, read at an index: row `p` of each layer is the row
  function of row `p` of the block of features and of the weights. Rounding the factors of a product to a
  narrower float format is the identity on the extended reals, a product into a zero accumulator is the plain sum of
  products, and the bias, loaded as a `[1, n]` row, is added to every row.
-/
import proofs.«146409_j45483703665013_2_alg».proof.Proof.Gen.KernelIdeal.Skeleton
import proofs.«146409_j45483703665013_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Layers

open Cert.KernelIdeal Cert.KernelIdeal.Gen Idealize.ShloMosaic Idealize.ShloMosaic.ValueIdx Cert.TasteNet

/-! ## The three products at an index -/

theorem mm1_lhs0 (i : S8192x128.Idx) (q : dot_S8192x64_S64x128_S8192x128_1_0_0_1_n_n.contr.Idx) : (dot_S8192x64_S64x128_S8192x128_1_0_0_1_n_n.lhsIdx i q 0).val = (i 0).val := by
  unfold DotDims.lhsIdx
  rw [dif_neg (show ¬(0 : Fin S8192x64.rank) ∈ dot_S8192x64_S64x128_S8192x128_1_0_0_1_n_n.lhsBatch by decide), dif_pos (show (0 : Fin S8192x64.rank) ∈ dot_S8192x64_S64x128_S8192x128_1_0_0_1_n_n.lhsNonContracting by decide)]
  rfl
theorem mm1_rhs1 (i : S8192x128.Idx) (q : dot_S8192x64_S64x128_S8192x128_1_0_0_1_n_n.contr.Idx) : (dot_S8192x64_S64x128_S8192x128_1_0_0_1_n_n.rhsIdx i q 1).val = (i 1).val := by
  unfold DotDims.rhsIdx
  rw [dif_neg (show ¬(1 : Fin S64x128.rank) ∈ dot_S8192x64_S64x128_S8192x128_1_0_0_1_n_n.rhsBatch by decide), dif_pos (show (1 : Fin S64x128.rank) ∈ dot_S8192x64_S64x128_S8192x128_1_0_0_1_n_n.rhsNonContracting by decide)]
  rfl

/-- Entry `(p, j)` of the product into a zero accumulator is the sum over `k` of the left factor at `(p, k)` times the
    right factor at `(k, j)`. -/
theorem mm1_at (Lh : FVec Ideal S8192x64 .bf16) (Rh : FVec Ideal S64x128 .bf16) (p : Fin 8192) (j : Fin 128) :
    matmul dot_S8192x64_S64x128_S8192x128_1_0_0_1_n_n none Lh Rh (constant (F := Ideal) S8192x128 .f32 0x00000000#32) (ix2 p j)
      = ∑ k : Fin 64, Lh (ix2 p k) * Rh (ix2 k j) := by
  refine (Ideal.matmul_constant_zero_apply dot_S8192x64_S64x128_S8192x128_1_0_0_1_n_n none Lh Rh (ix2 p j)).trans ?_
  rw [← Equiv.sum_comp (contrEquiv1 dot_S8192x64_S64x128_S8192x128_1_0_0_1_n_n 64 rfl rfl).symm]
  refine Finset.sum_congr rfl fun k _ => ?_
  have hk := contrEquiv1_symm_val dot_S8192x64_S64x128_S8192x128_1_0_0_1_n_n 64 rfl rfl k
  have el : dot_S8192x64_S64x128_S8192x128_1_0_0_1_n_n.lhsIdx (ix2 p j) ((contrEquiv1 dot_S8192x64_S64x128_S8192x128_1_0_0_1_n_n 64 rfl rfl).symm k) = ix2 p k := funext fun a => Fin.ext (by
    match a with
    | ⟨0, _⟩ => exact mm1_lhs0 _ _
    | ⟨1, _⟩ => exact (dot_S8192x64_S64x128_S8192x128_1_0_0_1_n_n.lhsIdx_val_of_single rfl _ _).trans hk)
  have er : dot_S8192x64_S64x128_S8192x128_1_0_0_1_n_n.rhsIdx (ix2 p j) ((contrEquiv1 dot_S8192x64_S64x128_S8192x128_1_0_0_1_n_n 64 rfl rfl).symm k) = ix2 k j := funext fun a => Fin.ext (by
    match a with
    | ⟨0, _⟩ => exact (dot_S8192x64_S64x128_S8192x128_1_0_0_1_n_n.rhsIdx_val_of_single rfl _ _).trans hk
    | ⟨1, _⟩ => exact mm1_rhs1 _ _)
  rw [el, er]

theorem mm2_lhs0 (i : S8192x128.Idx) (q : dot_S8192x128_S128x128_S8192x128_1_0_0_1_n_n.contr.Idx) : (dot_S8192x128_S128x128_S8192x128_1_0_0_1_n_n.lhsIdx i q 0).val = (i 0).val := by
  unfold DotDims.lhsIdx
  rw [dif_neg (show ¬(0 : Fin S8192x128.rank) ∈ dot_S8192x128_S128x128_S8192x128_1_0_0_1_n_n.lhsBatch by decide), dif_pos (show (0 : Fin S8192x128.rank) ∈ dot_S8192x128_S128x128_S8192x128_1_0_0_1_n_n.lhsNonContracting by decide)]
  rfl
theorem mm2_rhs1 (i : S8192x128.Idx) (q : dot_S8192x128_S128x128_S8192x128_1_0_0_1_n_n.contr.Idx) : (dot_S8192x128_S128x128_S8192x128_1_0_0_1_n_n.rhsIdx i q 1).val = (i 1).val := by
  unfold DotDims.rhsIdx
  rw [dif_neg (show ¬(1 : Fin S128x128.rank) ∈ dot_S8192x128_S128x128_S8192x128_1_0_0_1_n_n.rhsBatch by decide), dif_pos (show (1 : Fin S128x128.rank) ∈ dot_S8192x128_S128x128_S8192x128_1_0_0_1_n_n.rhsNonContracting by decide)]
  rfl

/-- Entry `(p, j)` of the product into a zero accumulator is the sum over `k` of the left factor at `(p, k)` times the
    right factor at `(k, j)`. -/
theorem mm2_at (Lh : FVec Ideal S8192x128 .bf16) (Rh : FVec Ideal S128x128 .bf16) (p : Fin 8192) (j : Fin 128) :
    matmul dot_S8192x128_S128x128_S8192x128_1_0_0_1_n_n none Lh Rh (constant (F := Ideal) S8192x128 .f32 0x00000000#32) (ix2 p j)
      = ∑ k : Fin 128, Lh (ix2 p k) * Rh (ix2 k j) := by
  refine (Ideal.matmul_constant_zero_apply dot_S8192x128_S128x128_S8192x128_1_0_0_1_n_n none Lh Rh (ix2 p j)).trans ?_
  rw [← Equiv.sum_comp (contrEquiv1 dot_S8192x128_S128x128_S8192x128_1_0_0_1_n_n 128 rfl rfl).symm]
  refine Finset.sum_congr rfl fun k _ => ?_
  have hk := contrEquiv1_symm_val dot_S8192x128_S128x128_S8192x128_1_0_0_1_n_n 128 rfl rfl k
  have el : dot_S8192x128_S128x128_S8192x128_1_0_0_1_n_n.lhsIdx (ix2 p j) ((contrEquiv1 dot_S8192x128_S128x128_S8192x128_1_0_0_1_n_n 128 rfl rfl).symm k) = ix2 p k := funext fun a => Fin.ext (by
    match a with
    | ⟨0, _⟩ => exact mm2_lhs0 _ _
    | ⟨1, _⟩ => exact (dot_S8192x128_S128x128_S8192x128_1_0_0_1_n_n.lhsIdx_val_of_single rfl _ _).trans hk)
  have er : dot_S8192x128_S128x128_S8192x128_1_0_0_1_n_n.rhsIdx (ix2 p j) ((contrEquiv1 dot_S8192x128_S128x128_S8192x128_1_0_0_1_n_n 128 rfl rfl).symm k) = ix2 k j := funext fun a => Fin.ext (by
    match a with
    | ⟨0, _⟩ => exact (dot_S8192x128_S128x128_S8192x128_1_0_0_1_n_n.rhsIdx_val_of_single rfl _ _).trans hk
    | ⟨1, _⟩ => exact mm2_rhs1 _ _)
  rw [el, er]

theorem mm3_lhs0 (i : S8192x12.Idx) (q : dot_S8192x128_S128x12_S8192x12_1_0_0_1_n_n.contr.Idx) : (dot_S8192x128_S128x12_S8192x12_1_0_0_1_n_n.lhsIdx i q 0).val = (i 0).val := by
  unfold DotDims.lhsIdx
  rw [dif_neg (show ¬(0 : Fin S8192x128.rank) ∈ dot_S8192x128_S128x12_S8192x12_1_0_0_1_n_n.lhsBatch by decide), dif_pos (show (0 : Fin S8192x128.rank) ∈ dot_S8192x128_S128x12_S8192x12_1_0_0_1_n_n.lhsNonContracting by decide)]
  rfl
theorem mm3_rhs1 (i : S8192x12.Idx) (q : dot_S8192x128_S128x12_S8192x12_1_0_0_1_n_n.contr.Idx) : (dot_S8192x128_S128x12_S8192x12_1_0_0_1_n_n.rhsIdx i q 1).val = (i 1).val := by
  unfold DotDims.rhsIdx
  rw [dif_neg (show ¬(1 : Fin S128x12.rank) ∈ dot_S8192x128_S128x12_S8192x12_1_0_0_1_n_n.rhsBatch by decide), dif_pos (show (1 : Fin S128x12.rank) ∈ dot_S8192x128_S128x12_S8192x12_1_0_0_1_n_n.rhsNonContracting by decide)]
  rfl

/-- Entry `(p, j)` of the product into a zero accumulator is the sum over `k` of the left factor at `(p, k)` times the
    right factor at `(k, j)`. -/
theorem mm3_at (Lh : FVec Ideal S8192x128 .bf16) (Rh : FVec Ideal S128x12 .bf16) (p : Fin 8192) (j : Fin 12) :
    matmul dot_S8192x128_S128x12_S8192x12_1_0_0_1_n_n none Lh Rh (constant (F := Ideal) S8192x12 .f32 0x00000000#32) (ix2 p j)
      = ∑ k : Fin 128, Lh (ix2 p k) * Rh (ix2 k j) := by
  refine (Ideal.matmul_constant_zero_apply dot_S8192x128_S128x12_S8192x12_1_0_0_1_n_n none Lh Rh (ix2 p j)).trans ?_
  rw [← Equiv.sum_comp (contrEquiv1 dot_S8192x128_S128x12_S8192x12_1_0_0_1_n_n 128 rfl rfl).symm]
  refine Finset.sum_congr rfl fun k _ => ?_
  have hk := contrEquiv1_symm_val dot_S8192x128_S128x12_S8192x12_1_0_0_1_n_n 128 rfl rfl k
  have el : dot_S8192x128_S128x12_S8192x12_1_0_0_1_n_n.lhsIdx (ix2 p j) ((contrEquiv1 dot_S8192x128_S128x12_S8192x12_1_0_0_1_n_n 128 rfl rfl).symm k) = ix2 p k := funext fun a => Fin.ext (by
    match a with
    | ⟨0, _⟩ => exact mm3_lhs0 _ _
    | ⟨1, _⟩ => exact (dot_S8192x128_S128x12_S8192x12_1_0_0_1_n_n.lhsIdx_val_of_single rfl _ _).trans hk)
  have er : dot_S8192x128_S128x12_S8192x12_1_0_0_1_n_n.rhsIdx (ix2 p j) ((contrEquiv1 dot_S8192x128_S128x12_S8192x12_1_0_0_1_n_n 128 rfl rfl).symm k) = ix2 k j := funext fun a => Fin.ext (by
    match a with
    | ⟨0, _⟩ => exact (dot_S8192x128_S128x12_S8192x12_1_0_0_1_n_n.rhsIdx_val_of_single rfl _ _).trans hk
    | ⟨1, _⟩ => exact mm3_rhs1 _ _)
  rw [el, er]

/-! ## The layers as vector terms, and their rows -/

/-- The first hidden layer of a block: the kernel's own operations on the loaded features, weights and bias row. -/
def act1 (P1 : Vec Ideal S8192x64 .f32) (P2 : Vec Ideal S64x128 .f32) (P5 : Vec Ideal S1x128 .f32) : FVec Ideal S8192x128 .f32 :=
  maximumf (addf (matmul dot_S8192x64_S64x128_S8192x128_1_0_0_1_n_n none (truncf .bf16 P1 bitsLt_bf16_f32) (truncf .bf16 P2 bitsLt_bf16_f32) (constant S8192x128 .f32 0x00000000#32))
      (broadcastTo S8192x128 (shapeCast S1x128 P5 shapeCasts_S1x128_S1x128) broadcasts_S1x128_S8192x128))
    (broadcast S8192x128 (Scalar.ofBits .f32 0x00000000#32))

/-- The second hidden layer of a block, from the first. -/
def act2 (H : FVec Ideal S8192x128 .f32) (P3 : Vec Ideal S128x128 .f32) (P6 : Vec Ideal S1x128 .f32) : FVec Ideal S8192x128 .f32 :=
  maximumf (addf (matmul dot_S8192x128_S128x128_S8192x128_1_0_0_1_n_n none (truncf .bf16 H bitsLt_bf16_f32) (truncf .bf16 P3 bitsLt_bf16_f32) (constant S8192x128 .f32 0x00000000#32))
      (broadcastTo S8192x128 (shapeCast S1x128 P6 shapeCasts_S1x128_S1x128) broadcasts_S1x128_S8192x128))
    (broadcast S8192x128 (Scalar.ofBits .f32 0x00000000#32))

/-- The output layer of a block, from the second hidden layer. -/
def lin3v (H : FVec Ideal S8192x128 .f32) (P4 : Vec Ideal S128x12 .f32) (P7 : Vec Ideal S1x12 .f32) : FVec Ideal S8192x12 .f32 :=
  addf (matmul dot_S8192x128_S128x12_S8192x12_1_0_0_1_n_n none (truncf .bf16 H bitsLt_bf16_f32) (truncf .bf16 P4 bitsLt_bf16_f32) (constant S8192x12 .f32 0x00000000#32))
    (broadcastTo S8192x12 (shapeCast S1x12 P7 shapeCasts_S1x12_S1x12) broadcasts_S1x12_S8192x12)

/-- The body's twelve-column payload is the three layers composed. -/
theorem pay2_layers (P1 : Vec Ideal S8192x64 .f32) (P2 : Vec Ideal S64x128 .f32) (P3 : Vec Ideal S128x128 .f32)
    (P4 : Vec Ideal S128x12 .f32) (P5 : Vec Ideal S1x128 .f32) (P6 : Vec Ideal S1x128 .f32) (P7 : Vec Ideal S1x12 .f32) :
    k0_pay2 P1 P2 P3 P4 P5 P6 P7 = lin3v (act2 (act1 P1 P2 P5) P3 P6) P4 P7 := rfl

theorem act1_at (P1 : Vec Ideal S8192x64 .f32) (P2 : Vec Ideal S64x128 .f32) (P5 : Vec Ideal S1x128 .f32) (p : Fin 8192) (j : Fin 128) :
    act1 P1 P2 P5 (ix2 p j) = hid1 (fun k => P1 (ix2 p k)) (fun k j => P2 (ix2 k j)) (fun j => P5 (ix2 (0 : Fin 1) j)) j := by
  unfold act1 hid1
  rw [maximumf_apply, addf_apply, broadcast_apply, mm1_at, broadcastTo_1b_ab_apply, shapeCast_self]
  show max (_ + _) (Ideal.ofBits .f32 0x00000000#32) = _
  rw [Ideal.ofBits_zero_f32]
  rfl

theorem act2_at (H : FVec Ideal S8192x128 .f32) (P3 : Vec Ideal S128x128 .f32) (P6 : Vec Ideal S1x128 .f32) (p : Fin 8192) (j : Fin 128) :
    act2 H P3 P6 (ix2 p j) = hid2 (fun k => H (ix2 p k)) (fun k j => P3 (ix2 k j)) (fun j => P6 (ix2 (0 : Fin 1) j)) j := by
  unfold act2 hid2
  rw [maximumf_apply, addf_apply, broadcast_apply, mm2_at, broadcastTo_1b_ab_apply, shapeCast_self]
  show max (_ + _) (Ideal.ofBits .f32 0x00000000#32) = _
  rw [Ideal.ofBits_zero_f32]
  rfl

theorem lin3v_at (H : FVec Ideal S8192x128 .f32) (P4 : Vec Ideal S128x12 .f32) (P7 : Vec Ideal S1x12 .f32) (p : Fin 8192) (j : Fin 12) :
    lin3v H P4 P7 (ix2 p j) = lin3 (fun k => H (ix2 p k)) (fun k j => P4 (ix2 k j)) (fun j => P7 (ix2 (0 : Fin 1) j)) j := by
  unfold lin3v lin3
  rw [addf_apply, mm3_at, broadcastTo_1b_ab_apply, shapeCast_self]
  rfl

/-- Row `p` of the block's twelve-column payload is the row function of row `p` of the loaded features. -/
theorem pay2_at (P1 : Vec Ideal S8192x64 .f32) (P2 : Vec Ideal S64x128 .f32) (P3 : Vec Ideal S128x128 .f32)
    (P4 : Vec Ideal S128x12 .f32) (P5 : Vec Ideal S1x128 .f32) (P6 : Vec Ideal S1x128 .f32) (P7 : Vec Ideal S1x12 .f32)
    (p : Fin 8192) (j : Fin 12) :
    k0_pay2 P1 P2 P3 P4 P5 P6 P7 (ix2 p j)
      = beta (fun k => P1 (ix2 p k)) (fun k j => P2 (ix2 k j)) (fun j => P5 (ix2 (0 : Fin 1) j))
          (fun k j => P3 (ix2 k j)) (fun j => P6 (ix2 (0 : Fin 1) j)) (fun k j => P4 (ix2 k j)) (fun j => P7 (ix2 (0 : Fin 1) j)) j := by
  rw [pay2_layers, lin3v_at]
  unfold beta
  congr 1
  funext k
  rw [act2_at]
  congr 1
  funext k'
  exact act1_at P1 P2 P5 p k'

end Cert.KernelIdeal.Layers

end
-- ==== Proof.KernelRow.lean ====
/-
  What one block of the kernel's result holds, index by index: entry `(p, c)` of the block is the row function of
  row `p` of the loaded blocks. The body masks the nine taste columns by lane (column 6 passes, the others are
  clamped at zero from above), multiplies by the features, sums each segment of three columns along the lanes, lays
  the three sums side by side and adds the three intercept columns.
-/
import proofs.«146409_j45483703665013_2_alg».proof.Proof.Gen.KernelIdeal.Value
import proofs.«146409_j45483703665013_2_alg».proof.Proof.KernelLayers

noncomputable section

namespace Cert.KernelIdeal.Row

open Cert.KernelIdeal Cert.KernelIdeal.Gen Idealize.ShloMosaic Idealize.ShloMosaic.ValueIdx Cert.TasteNet
open Cert.KernelIdeal.Layers

/-- The lane mask is one exactly in column 6. -/
theorem mask_at (p : Fin 8192) (q : Fin 9) : k0_pay4 (ix2 p q) = if q.val = 6 then 1#1 else 0#1 := by
  unfold k0_pay4
  show IntOp.cmpi .eq (iota .tc S8192x9 32 [1] iota_S8192x9_d1_w32 (ix2 p q)) (6#32) = _
  rw [iota_single_apply]
  show IntOp.cmpi .eq (BitVec.ofNat 32 q.val) (6#32) = _
  fin_cases q <;> rfl

/-- The masked taste columns of a block, from its twelve-column payload. -/
def tasteV (B : FVec Ideal S8192x12 .f32) : FVec Ideal S8192x9 .f32 :=
  select k0_pay4 (extractStridedSlice S8192x9 ![0, 0] B slices_S8192x12_o0_0_S8192x9)
    (minimumf (extractStridedSlice S8192x9 ![0, 0] B slices_S8192x12_o0_0_S8192x9) (broadcast S8192x9 (Scalar.ofBits .f32 0x00000000#32)))

theorem tasteV_at (B : FVec Ideal S8192x12 .f32) (p : Fin 8192) (q : Fin 9) :
    tasteV B (ix2 p q) = taste (fun j => B (ix2 p j)) q := by
  unfold tasteV taste
  rw [select_apply, minimumf_apply, broadcast_apply, mask_at,
    slice2_axis1_apply 0 B slices_S8192x12_o0_0_S8192x9 p q ⟨q.val, by have := q.isLt; omega⟩ (Nat.zero_add _).symm]
  show Scalar.select _ _ (min _ (Ideal.ofBits .f32 0x00000000#32)) = _
  rw [Ideal.ofBits_zero_f32]
  by_cases h : q.val = 6
  · rw [if_pos h, if_pos h, select_one]
  · rw [if_neg h, if_neg h, select_zero]

/-- A lane sum of three columns, read at a row. -/
theorem rowsum3 (src : FVec Ideal S8192x3 .f32) (hφ : FKind.Formats .f32) (hacc : (0x00000000#32 : BitVec 32) = FKind.add.neutral .f32 hφ)
    (p : Fin 8192) :
    multiReduction .add [1] S8192 src 0x00000000#32 reduces_S8192x3_S8192 hφ hacc (ix1 p) = ∑ k : Fin 3, src (ix2 p k) := by
  refine (Ideal.multiReduction_add_single src 0x00000000#32 reduces_S8192x3_S8192 hφ hacc (ix1 p)).trans ?_
  exact Finset.sum_congr rfl fun k _ => congrArg src (funext fun a => Fin.ext (by match a with | ⟨0, _⟩ => rfl | ⟨1, _⟩ => rfl))

/-- A vector of row values kept as a one-column matrix reads, at `(p, 0)`, the vector at `p`. -/
theorem column_at (v : FVec Ideal S8192 .f32) (p : Fin 8192) :
    shapeCast S8192x1 v shapeCasts_S8192_S8192x1 (ix2 p (0 : Fin 1)) = v (ix1 p) :=
  shapeCast_apply v shapeCasts_S8192_S8192x1 _ _ (by
    rw [Shape.rowMajor_val_two, Shape.rowMajor_val_one]
    show p.val = p.val * 1 + 0
    omega)

/-- The sum of the segment of three columns starting at column `o` of features times masked taste columns, at row `p`. -/
theorem segment_at (o : Nat) (ho : o + 3 ≤ 9) (P0 : Vec Ideal S8192x9 .f32) (Tv : FVec Ideal S8192x9 .f32)
    (h : S8192x9.Slices ![0, o] S8192x3) (hφ : FKind.Formats .f32) (hacc : (0x00000000#32 : BitVec 32) = FKind.add.neutral .f32 hφ)
    (p : Fin 8192) :
    shapeCast S8192x1 (multiReduction .add [1] S8192 (extractStridedSlice S8192x3 ![0, o] (mulf P0 Tv) h) 0x00000000#32
        reduces_S8192x3_S8192 hφ hacc) shapeCasts_S8192_S8192x1 (ix2 p (0 : Fin 1))
      = ∑ k : Fin 3, P0 (ix2 p ⟨o + k.val, by have := k.isLt; omega⟩) * Tv (ix2 p ⟨o + k.val, by have := k.isLt; omega⟩) := by
  refine (column_at _ p).trans ((rowsum3 _ hφ hacc p).trans ?_)
  exact Finset.sum_congr rfl fun k _ =>
    slice2_axis1_apply o (mulf P0 Tv) h p k ⟨o + k.val, by have := k.isLt; omega⟩ rfl

/-! ## One entry of the block -/

section Block

variable (P0 : Vec Ideal S8192x9 .f32) (P1 : Vec Ideal S8192x64 .f32) (P2 : Vec Ideal S64x128 .f32) (P3 : Vec Ideal S128x128 .f32)
  (P4 : Vec Ideal S128x12 .f32) (P5 : Vec Ideal S1x128 .f32) (P6 : Vec Ideal S1x128 .f32) (P7 : Vec Ideal S1x12 .f32)

/-- The twelve numbers of row `p` of the block. -/
abbrev betaOf (p : Fin 8192) : Fin 12 → EReal :=
  beta (fun k => P1 (ix2 p k)) (fun k j => P2 (ix2 k j)) (fun j => P5 (ix2 (0 : Fin 1) j))
    (fun k j => P3 (ix2 k j)) (fun j => P6 (ix2 (0 : Fin 1) j)) (fun k j => P4 (ix2 k j)) (fun j => P7 (ix2 (0 : Fin 1) j))

theorem pay2_row (p : Fin 8192) : (fun j => k0_pay2 P1 P2 P3 P4 P5 P6 P7 (ix2 p j)) = betaOf P1 P2 P3 P4 P5 P6 P7 p :=
  funext fun j => pay2_at P1 P2 P3 P4 P5 P6 P7 p j

/-- Segment `c`'s sum at row `p`, in the spelling of the block's function: the operand of the concatenation that
    holds column `c`, read at `(p, 0)`. -/
theorem segment_of (p : Fin 8192) (c : Fin 3) :
    Value.Cat8_0 P0 P1 P2 P3 P4 P5 P6 P7 c (ix2 p (0 : Fin 1))
      = ∑ k : Fin 3, P0 (ix2 p ⟨3 * c.val + k.val, by have := c.isLt; have := k.isLt; omega⟩)
          * taste (betaOf P1 P2 P3 P4 P5 P6 P7 p) ⟨3 * c.val + k.val, by have := c.isLt; have := k.isLt; omega⟩ := by
  match c with
  | ⟨0, _⟩ =>
    refine (segment_at 0 (by omega) P0 (tasteV (k0_pay2 P1 P2 P3 P4 P5 P6 P7)) slices_S8192x9_o0_0_S8192x3 _ _ p).trans ?_
    refine Finset.sum_congr rfl fun k _ => ?_
    rw [tasteV_at, pay2_row]
    rfl
  | ⟨1, _⟩ =>
    refine (segment_at 3 (by omega) P0 (tasteV (k0_pay2 P1 P2 P3 P4 P5 P6 P7)) slices_S8192x9_o0_3_S8192x3 _ _ p).trans ?_
    refine Finset.sum_congr rfl fun k _ => ?_
    rw [tasteV_at, pay2_row]
    rfl
  | ⟨2, _⟩ =>
    refine (segment_at 6 (by omega) P0 (tasteV (k0_pay2 P1 P2 P3 P4 P5 P6 P7)) slices_S8192x9_o0_6_S8192x3 _ _ p).trans ?_
    refine Finset.sum_congr rfl fun k _ => ?_
    rw [tasteV_at, pay2_row]
    rfl

/-- Entry `(p, c)` of what the body leaves in the result's block is the row function of row `p` of the loaded blocks. -/
theorem block_at (p : Fin 8192) (c : Fin 3) :
    Value.E8 P0 P1 P2 P3 P4 P5 P6 P7 (ix2 p c) = logit (fun q => P0 (ix2 p q)) (betaOf P1 P2 P3 P4 P5 P6 P7 p) c := by
  have e0 : Value.ix8_0 (ix2 p c) = ix2 p (0 : Fin 1) :=
    funext fun a => Fin.ext (by match a with | ⟨0, _⟩ => rfl | ⟨1, _⟩ => rfl)
  have e1 : Value.ix8_1 (ix2 p c) = ix2 p ⟨9 + c.val, by have := c.isLt; omega⟩ :=
    funext fun a => Fin.ext (by match a with | ⟨0, _⟩ => rfl | ⟨1, _⟩ => exact Nat.add_comm _ _)
  have es : Value.csel8_0 (ix2 p c) = c := Fin.ext rfl
  show Value.Cat8_0 P0 P1 P2 P3 P4 P5 P6 P7 (Value.csel8_0 (ix2 p c)) (Value.ix8_0 (ix2 p c))
      + k0_pay2 P1 P2 P3 P4 P5 P6 P7 (Value.ix8_1 (ix2 p c)) = _
  rw [e0, e1, es, segment_of, pay2_at]
  rfl

end Block

end Cert.KernelIdeal.Row

end
-- ==== Proof.KernelArray.lean ====
/-
  From blocks to the array: the kernel's result array is the specification of the arrays the region finds.

  Grid point `t` (of 64) reads rows `8192 t … 8192 t + 8191` of the features and of the socio-demographic array, the
  whole of each weight matrix and bias row, and writes rows `8192 t … 8192 t + 8191` of the result. Each row of the
  result depends on the same row of the two row-blocked arguments only, so block `t` of the result is block `t` of one
  whole-array function, and the 64 blocks cover the array.
-/
import proofs.«146409_j45483703665013_2_alg».proof.Proof.Gen.KernelIdeal.Value
import proofs.«146409_j45483703665013_2_alg».proof.Proof.KernelRow

noncomputable section

namespace Cert.KernelIdeal.Whole

open Cert.KernelIdeal Cert.KernelIdeal.Gen Idealize.ShloMosaic Idealize.ShloMosaic.TcCoe Idealize.SL.Sem
open Idealize.ShloMosaic.ValueIdx Cert.TasteNet Cert.KernelIdeal.Row
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- The printed index maps over the grid: the two row-blocked inputs and the output move together, one block of rows
    per point; every other block index is zero. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val ∧ win0_8.index t (1 : Fin 2) = 0 :=
  (by decide +kernel : ∀ t : Fin grid0.N, _)

/-- Row `p` of point `t`'s block of rows, as a row of the whole array. -/
def rowOf (t : Fin cfg0.N) (p : Fin 8192) : Fin 524288 :=
  ⟨t.val * 8192 + p.val, by have ht : t.val < 64 := N_0 ▸ t.isLt; have := p.isLt; omega⟩

/-! ## Each window's block, read where the result's row says -/

theorem read0 (c : Dev nD) (t : Fin cfg0.N) (p : Fin 8192) (q : Fin 9) :
    iblk m c 0 t (ix2 p q) = V m c main_arg0 (ix2 (rowOf t p) q) := by
  obtain ⟨e0, e1, -⟩ := index_facts t
  show V m c main_arg0 (((cfg0.win 0).blk t).view.emb (ix2 p q)) = V m c main_arg0 (ix2 (rowOf t p) q)
  refine congrArg (V m c main_arg0) (funext fun a => Fin.ext ?_)
  match a with
  | ⟨0, _⟩ => show win0_0.index t (0 : Fin 2) * 8192 + 1 * p.val = t.val * 8192 + p.val; rw [e0]; omega
  | ⟨1, _⟩ => show win0_0.index t (1 : Fin 2) * 9 + 1 * q.val = q.val; rw [e1]; omega

theorem read1 (c : Dev nD) (t : Fin cfg0.N) (p : Fin 8192) (k : Fin 64) :
    iblk m c 1 t (ix2 p k) = V m c main_arg1 (ix2 (rowOf t p) k) := by
  obtain ⟨-, -, e0, e1, -⟩ := index_facts t
  show V m c main_arg1 (((cfg0.win 1).blk t).view.emb (ix2 p k)) = V m c main_arg1 (ix2 (rowOf t p) k)
  refine congrArg (V m c main_arg1) (funext fun a => Fin.ext ?_)
  match a with
  | ⟨0, _⟩ => show win0_1.index t (0 : Fin 2) * 8192 + 1 * p.val = t.val * 8192 + p.val; rw [e0]; omega
  | ⟨1, _⟩ => show win0_1.index t (1 : Fin 2) * 64 + 1 * k.val = k.val; rw [e1]; omega

theorem read2 (c : Dev nD) (t : Fin cfg0.N) (k : Fin 64) (j : Fin 128) :
    iblk m c 2 t (ix2 k j) = V m c main_arg2 (ix2 k j) := by
  have e0 : win0_2.index t (0 : Fin 2) = 0 := (index_facts t).2.2.2.2.1
  have e1 : win0_2.index t (1 : Fin 2) = 0 := (index_facts t).2.2.2.2.2.1
  show V m c main_arg2 (((cfg0.win 2).blk t).view.emb (ix2 k j)) = V m c main_arg2 (ix2 k j)
  refine congrArg (V m c main_arg2) (funext fun a => Fin.ext ?_)
  match a with
  | ⟨0, _⟩ => show win0_2.index t (0 : Fin 2) * 64 + 1 * k.val = k.val; rw [e0]; omega
  | ⟨1, _⟩ => show win0_2.index t (1 : Fin 2) * 128 + 1 * j.val = j.val; rw [e1]; omega

theorem read3 (c : Dev nD) (t : Fin cfg0.N) (u : Fin 1) (j : Fin 128) :
    iblk m c 3 t (ix2 u j) = V m c main_v0 (ix2 u j) := by
  have e0 : win0_3.index t (0 : Fin 2) = 0 := (index_facts t).2.2.2.2.2.2.1
  have e1 : win0_3.index t (1 : Fin 2) = 0 := (index_facts t).2.2.2.2.2.2.2.1
  show V m c main_v0 (((cfg0.win 3).blk t).view.emb (ix2 u j)) = V m c main_v0 (ix2 u j)
  refine congrArg (V m c main_v0) (funext fun a => Fin.ext ?_)
  match a with
  | ⟨0, _⟩ => show win0_3.index t (0 : Fin 2) * 1 + 1 * u.val = u.val; rw [e0]; omega
  | ⟨1, _⟩ => show win0_3.index t (1 : Fin 2) * 128 + 1 * j.val = j.val; rw [e1]; omega

theorem read4 (c : Dev nD) (t : Fin cfg0.N) (k : Fin 128) (j : Fin 128) :
    iblk m c 4 t (ix2 k j) = V m c main_arg4 (ix2 k j) := by
  have e0 : win0_4.index t (0 : Fin 2) = 0 := (index_facts t).2.2.2.2.2.2.2.2.1
  have e1 : win0_4.index t (1 : Fin 2) = 0 := (index_facts t).2.2.2.2.2.2.2.2.2.1
  show V m c main_arg4 (((cfg0.win 4).blk t).view.emb (ix2 k j)) = V m c main_arg4 (ix2 k j)
  refine congrArg (V m c main_arg4) (funext fun a => Fin.ext ?_)
  match a with
  | ⟨0, _⟩ => show win0_4.index t (0 : Fin 2) * 128 + 1 * k.val = k.val; rw [e0]; omega
  | ⟨1, _⟩ => show win0_4.index t (1 : Fin 2) * 128 + 1 * j.val = j.val; rw [e1]; omega

theorem read5 (c : Dev nD) (t : Fin cfg0.N) (u : Fin 1) (j : Fin 128) :
    iblk m c 5 t (ix2 u j) = V m c main_v1 (ix2 u j) := by
  have e0 : win0_5.index t (0 : Fin 2) = 0 := (index_facts t).2.2.2.2.2.2.2.2.2.2.1
  have e1 : win0_5.index t (1 : Fin 2) = 0 := (index_facts t).2.2.2.2.2.2.2.2.2.2.2.1
  show V m c main_v1 (((cfg0.win 5).blk t).view.emb (ix2 u j)) = V m c main_v1 (ix2 u j)
  refine congrArg (V m c main_v1) (funext fun a => Fin.ext ?_)
  match a with
  | ⟨0, _⟩ => show win0_5.index t (0 : Fin 2) * 1 + 1 * u.val = u.val; rw [e0]; omega
  | ⟨1, _⟩ => show win0_5.index t (1 : Fin 2) * 128 + 1 * j.val = j.val; rw [e1]; omega

theorem read6 (c : Dev nD) (t : Fin cfg0.N) (k : Fin 128) (j : Fin 12) :
    iblk m c 6 t (ix2 k j) = V m c main_arg6 (ix2 k j) := by
  have e0 : win0_6.index t (0 : Fin 2) = 0 := (index_facts t).2.2.2.2.2.2.2.2.2.2.2.2.1
  have e1 : win0_6.index t (1 : Fin 2) = 0 := (index_facts t).2.2.2.2.2.2.2.2.2.2.2.2.2.1
  show V m c main_arg6 (((cfg0.win 6).blk t).view.emb (ix2 k j)) = V m c main_arg6 (ix2 k j)
  refine congrArg (V m c main_arg6) (funext fun a => Fin.ext ?_)
  match a with
  | ⟨0, _⟩ => show win0_6.index t (0 : Fin 2) * 128 + 1 * k.val = k.val; rw [e0]; omega
  | ⟨1, _⟩ => show win0_6.index t (1 : Fin 2) * 12 + 1 * j.val = j.val; rw [e1]; omega

theorem read7 (c : Dev nD) (t : Fin cfg0.N) (u : Fin 1) (j : Fin 12) :
    iblk m c 7 t (ix2 u j) = V m c main_v2 (ix2 u j) := by
  have e0 : win0_7.index t (0 : Fin 2) = 0 := (index_facts t).2.2.2.2.2.2.2.2.2.2.2.2.2.2.1
  have e1 : win0_7.index t (1 : Fin 2) = 0 := (index_facts t).2.2.2.2.2.2.2.2.2.2.2.2.2.2.2.1
  show V m c main_v2 (((cfg0.win 7).blk t).view.emb (ix2 u j)) = V m c main_v2 (ix2 u j)
  refine congrArg (V m c main_v2) (funext fun a => Fin.ext ?_)
  match a with
  | ⟨0, _⟩ => show win0_7.index t (0 : Fin 2) * 1 + 1 * u.val = u.val; rw [e0]; omega
  | ⟨1, _⟩ => show win0_7.index t (1 : Fin 2) * 12 + 1 * j.val = j.val; rw [e1]; omega

/-! ## The whole-array function, and the block each point writes -/

/-- The result array as a function of the arrays the region finds: the specification, the bias rows read at row 0. -/
def G (c : Dev nD) : S524288x3.Idx → EReal :=
  out (V m c main_arg0) (V m c main_arg1) (V m c main_arg2) (fun j => V m c main_v0 (ix2 (0 : Fin 1) j)) (V m c main_arg4)
    (fun j => V m c main_v1 (ix2 (0 : Fin 1) j)) (V m c main_arg6) (fun j => V m c main_v2 (ix2 (0 : Fin 1) j))

/-- Entry `y` of what point `t` leaves in the result's block is the whole-array function at row `8192 t + y₀`. -/
theorem entry_eq (c : Dev nD) (t : Fin cfg0.N) (y : S8192x3.Idx) :
    Value.E8 (F := Ideal) (iblk m c 0 t) (iblk m c 1 t) (iblk m c 2 t) (iblk m c 4 t) (iblk m c 6 t) (iblk m c 3 t) (iblk m c 5 t)
        (iblk m c 7 t) y
      = G m c (ix2 (rowOf t (y 0)) (y 1)) := by
  obtain ⟨p, q, rfl⟩ : ∃ (p : Fin 8192) (q : Fin 3), y = ix2 p q := ⟨y 0, y 1, eq_ix2 y⟩
  refine Eq.trans (block_at (iblk m c 0 t) (iblk m c 1 t) (iblk m c 2 t) (iblk m c 4 t) (iblk m c 6 t) (iblk m c 3 t) (iblk m c 5 t)
    (iblk m c 7 t) p q) ?_
  simp only [betaOf, read0, read1, read2, read3, read4, read5, read6, read7]
  rfl

/-- What point `t` writes back is block `t` of the whole-array function. -/
theorem flushed_eq (c : Dev nD) (t : Fin cfg0.N) :
    (dats m 0 c).flushed 8 t = ((cfg0.win 8).blk t).view.read (Elt Ideal) (G m c) := by
  have e80 : win0_8.index t (0 : Fin 2) = t.val := (index_facts t).2.2.2.2.2.2.2.2.2.2.2.2.2.2.2.2.1
  have e81 : win0_8.index t (1 : Fin 2) = 0 := (index_facts t).2.2.2.2.2.2.2.2.2.2.2.2.2.2.2.2.2
  rw [Value.flushed8]
  unfold out0_8
  simp only [View.ld_unit_zero (S := S8192x9) zero_offsets, View.ld_unit_zero (S := S8192x64) zero_offsets,
    View.ld_unit_zero (S := S64x128) zero_offsets, View.ld_unit_zero (S := S128x128) zero_offsets,
    View.ld_unit_zero (S := S128x12) zero_offsets, View.ld_unit_zero (S := S1x128) zero_offsets,
    View.ld_unit_zero (S := S1x12) zero_offsets]
  funext y
  refine Eq.trans (Value.canon8_eq (F := Ideal) (iblk m c 0 t) (iblk m c 1 t) (iblk m c 2 t) (iblk m c 4 t) (iblk m c 6 t)
    (iblk m c 3 t) (iblk m c 5 t) (iblk m c 7 t) y) ?_
  refine Eq.trans (entry_eq m c t y) ?_
  show G m c (ix2 (rowOf t (y 0)) (y 1)) = G m c (((cfg0.win 8).blk t).view.emb y)
  refine congrArg (G m c) (funext fun a => Fin.ext ?_)
  match a with
  | ⟨0, _⟩ => show t.val * 8192 + (y 0).val = win0_8.index t (0 : Fin 2) * 8192 + 1 * (y 0).val; rw [e80]; omega
  | ⟨1, _⟩ => show (y 1).val = win0_8.index t (1 : Fin 2) * 3 + 1 * (y 1).val; rw [e81]; omega

/-- An index of the result is in point `t`'s block iff each coordinate is in the block's range on its axis. -/
theorem mem_block (t : Fin cfg0.N) (i : S524288x3.Idx) :
    i ∈ ((cfg0.win 8).blk t).view.set ↔ ∀ a : Fin 2, win0_8.index t a * S8192x3.size a ≤ (i a).val
      ∧ (i a).val < win0_8.index t a * S8192x3.size a + S8192x3.size a := by
  show i ∈ ((View.whole main_v3).slice (win0_8.rect t)).set ↔ _
  rw [View.set_slice_whole, Rect.mem_set_unit]
  exact Iff.rfl

/-- Every row of the result is in the block of the point its number divided by 8192 names. -/
theorem cover (i : S524288x3.Idx) : ∃ t : Fin cfg0.N, (cfg0.win 8).flush t = true ∧ i ∈ ((cfg0.win 8).blk t).view.set := by
  have h0 : (i 0).val < 524288 := (i 0).isLt
  have h1 : (i 1).val < 3 := (i 1).isLt
  have hN : cfg0.N = 64 := N_0
  obtain ⟨t, ht⟩ : ∃ t : Fin cfg0.N, t.val = (i 0).val / 8192 := ⟨⟨(i 0).val / 8192, by rw [hN]; omega⟩, rfl⟩
  have e80 : win0_8.index t (0 : Fin 2) = t.val := (index_facts t).2.2.2.2.2.2.2.2.2.2.2.2.2.2.2.2.1
  have e81 : win0_8.index t (1 : Fin 2) = 0 := (index_facts t).2.2.2.2.2.2.2.2.2.2.2.2.2.2.2.2.2
  refine ⟨t, flush0_8 t, ?_⟩
  rw [mem_block]
  intro a
  match a with
  | ⟨0, _⟩ =>
    show win0_8.index t (0 : Fin 2) * 8192 ≤ (i 0).val ∧ (i 0).val < win0_8.index t (0 : Fin 2) * 8192 + 8192
    rw [e80, ht]; omega
  | ⟨1, _⟩ =>
    show win0_8.index t (1 : Fin 2) * 3 ≤ (i 1).val ∧ (i 1).val < win0_8.index t (1 : Fin 2) * 3 + 3
    rw [e81]; omega

/-- The result array after the run is the whole-array function of the arrays the region finds. -/
theorem final (c : Dev nD) : (dats m 0 c).arrAt 8 cfg0.N = G m c :=
  (dats m 0 c).arrAt_eq_of_cover 8 (G m c) (fun t _ => flushed_eq m c t) cover

end Cert.KernelIdeal.Whole

end
-- ==== Proof.KernelRun.lean ====
/-
  The kernel's run, read back: the result array ends at the specification of the ARGUMENT arrays.

  Before the region the program reshapes each bias vector `[n]` to a row `[1, n]`; row 0 of the reshaped array at
  column `j` is the vector at `j`. The other arrays the region reads are arguments no operation writes.
-/
import proofs.«146409_j45483703665013_2_alg».proof.Proof.KernelArray
import Idealize.ShloMosaic.Lib.StableHlo.Run

noncomputable section

namespace Cert.KernelIdeal.Whole

open Cert.KernelIdeal Cert.KernelIdeal.Gen Idealize.ShloMosaic Idealize.ShloMosaic.TcCoe Idealize.SL.Sem
open Idealize.ShloMosaic.ValueIdx Cert.TasteNet Idealize.ShloMosaic.StableHlo

variable (m : (ℓ : Loc nD τ sig) → Buf (Elt Ideal) ℓ) (ρ : Dev nD → PrngReg)

/-- The first bias row as the region finds it. -/
theorem bias_row1 (c : Dev nD) (j : Fin 128) :
    V m c main_v0 (ix2 (0 : Fin 1) j) = m ((c : Thread nD τ).loc main_arg3) (ix1 j) := by
  have e : (V m c main_v0 : S1x128.Idx → EReal)
      = shapeCast S1x128 (m ((c : Thread nD τ).loc main_arg3)) shapeCasts_S128_S1x128 := by
    dsimp only [Gen.V, Gen.hostOps0]; after_results; rfl
  rw [e]
  exact shapeCast_a_1a_apply _ _ 0 j

/-- The second bias row as the region finds it. -/
theorem bias_row2 (c : Dev nD) (j : Fin 128) :
    V m c main_v1 (ix2 (0 : Fin 1) j) = m ((c : Thread nD τ).loc main_arg5) (ix1 j) := by
  have e : (V m c main_v1 : S1x128.Idx → EReal)
      = shapeCast S1x128 (m ((c : Thread nD τ).loc main_arg5)) shapeCasts_S128_S1x128 := by
    dsimp only [Gen.V, Gen.hostOps0]; after_results; rfl
  rw [e]
  exact shapeCast_a_1a_apply _ _ 0 j

/-- The third bias row as the region finds it. -/
theorem bias_row3 (c : Dev nD) (j : Fin 12) :
    V m c main_v2 (ix2 (0 : Fin 1) j) = m ((c : Thread nD τ).loc main_arg7) (ix1 j) := by
  have e : (V m c main_v2 : S1x12.Idx → EReal)
      = shapeCast S1x12 (m ((c : Thread nD τ).loc main_arg7)) shapeCasts_S12_S1x12 := by
    dsimp only [Gen.V, Gen.hostOps0]; after_results; rfl
  rw [e]
  exact shapeCast_a_1a_apply _ _ 0 j

/-- The specification of the argument arrays as launched. -/
abbrev result (c : Dev nD) : S524288x3.Idx → EReal :=
  out (m ((c : Thread nD τ).loc main_arg0)) (m ((c : Thread nD τ).loc main_arg1)) (m ((c : Thread nD τ).loc main_arg2))
    (fun j => m ((c : Thread nD τ).loc main_arg3) (ix1 j)) (m ((c : Thread nD τ).loc main_arg4))
    (fun j => m ((c : Thread nD τ).loc main_arg5) (ix1 j)) (m ((c : Thread nD τ).loc main_arg6))
    (fun j => m ((c : Thread nD τ).loc main_arg7) (ix1 j))

/-- The whole-array function of the arrays the region finds is the specification of the arguments. -/
theorem G_eq (c : Dev nD) : G m c = result m c := by
  have b1 : (fun j : Fin 128 => V m c main_v0 (ix2 (0 : Fin 1) j)) = fun j => m ((c : Thread nD τ).loc main_arg3) (ix1 j) :=
    funext (bias_row1 m c)
  have b2 : (fun j : Fin 128 => V m c main_v1 (ix2 (0 : Fin 1) j)) = fun j => m ((c : Thread nD τ).loc main_arg5) (ix1 j) :=
    funext (bias_row2 m c)
  have b3 : (fun j : Fin 12 => V m c main_v2 (ix2 (0 : Fin 1) j)) = fun j => m ((c : Thread nD τ).loc main_arg7) (ix1 j) :=
    funext (bias_row3 m c)
  unfold G result
  rw [b1, b2, b3, V_main_arg0 m c, V_main_arg1 m c, V_main_arg2 m c, V_main_arg4 m c, V_main_arg6 m c]

/-- Every weakly fair execution of the kernel's program terminates with the result array at the specification of
    the arguments, the arguments unchanged. -/
theorem run : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans ((final m c).trans (G_eq m c)), (h c).2⟩)
    (Value.run_blocks m ρ)

end Cert.KernelIdeal.Whole

end
-- ==== Proof.lean ====
/-
  A three-layer perceptron turns each row of 64 socio-demographic features into twelve numbers; nine of them,
  clamped at zero from above except the one at position 6, weigh the row's nine alternative features, which are
  summed in three segments of three, and the last three are added as intercepts. The kernel does this for 8192 rows
  per grid point, on the matrix unit with the factors rounded to a narrower float format and the clamp written as a
  lane-masked choice between a value and its minimum with zero; the reference does it for all 524288 rows at once,
  the clamp written as negate, clamp at zero from below, negate, and the twelve columns rebuilt from four pieces.

  On the extended reals a change of float format is the identity, a product into a zero accumulator and the host's
  contraction are the same finite sum, and `-(max (-v) 0) = min v 0` for every `v`, infinite ones included; no
  other law is used, so the inputs' finiteness is never opened. Both result arrays are one function of the argument
  arrays, `Cert.TasteNet.out`: the kernel's because every block of rows it writes is that function's block
  (`Cert.KernelIdeal.Whole.run`), the reference's by reading its operations one at a time at an index
  (`Cert.ReferenceIdeal.Row.result_eq`). The three programs' frames are their runs with the result dropped, and the
  idealized kernel is the kernel's own text read at the extended reals, so nothing is owed for it.
-/
import proofs.«146409_j45483703665013_2_alg».proof.Defs
import proofs.«146409_j45483703665013_2_alg».proof.Proof.Gen.Kernel
import proofs.«146409_j45483703665013_2_alg».proof.Proof.Gen.Kernel.Frame
import proofs.«146409_j45483703665013_2_alg».proof.Proof.Gen.KernelIdeal
import proofs.«146409_j45483703665013_2_alg».proof.Proof.Gen.KernelIdeal.Frame
import proofs.«146409_j45483703665013_2_alg».proof.Proof.Gen.KernelIdeal.Value
import proofs.«146409_j45483703665013_2_alg».proof.Proof.Gen.ReferenceIdeal
import proofs.«146409_j45483703665013_2_alg».proof.Proof.Gen.Pre_finite_inputs
import proofs.«146409_j45483703665013_2_alg».proof.Proof.RunP
import proofs.«146409_j45483703665013_2_alg».proof.Proof.ReadP
import proofs.«146409_j45483703665013_2_alg».proof.Proof.RefRow
import proofs.«146409_j45483703665013_2_alg».proof.Proof.KernelRun
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does the kernel read at the extended reals. -/
theorem frame_kernelIdeal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- No operation of the kernel was rewritten for the reading at the extended reals. -/
theorem preserves : Cert.preserves_Kernel_KernelIdeal := trivial

/-- From memories that agree on the arguments both programs end with the result at `Cert.TasteNet.out` of the
    arguments. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, h6, h7⟩ := hagree c
  rw [Cert.ReferenceIdeal.ReadP.val_main_v38_eq, Cert.ReferenceIdeal.Row.result_eq, h0, h1, h2, h3, h4, h5, h6, h7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
